-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v54)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v54) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v58) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8192x4096 : Shape := ⟨2, ![8192, 4096]⟩
abbrev S16384x4096 : Shape := ⟨2, ![16384, 4096]⟩
abbrev S16384 : Shape := ⟨1, ![16384]⟩
abbrev S_ : Shape := ⟨0, ![]⟩

class Facts : Prop where
  bcast_S_S8192x4096 : S_.BroadcastsInDim S8192x4096 (![] : Fin 0 → Fin S8192x4096.rank)
  reducesTo_S8192x4096_S_d0_1 : S8192x4096.ReducesTo [0, 1] S_
  h_S_ : 0 < S_.numel
  bcast_S_S16384x4096 : S_.BroadcastsInDim S16384x4096 (![] : Fin 0 → Fin S16384x4096.rank)
  reducesTo_S16384x4096_S_d0_1 : S16384x4096.ReducesTo [0, 1] S_
  bcast_S_S16384 : S_.BroadcastsInDim S16384 (![] : Fin 0 → Fin S16384.rank)
  reducesTo_S16384_S_d0 : S16384.ReducesTo [0] S_

variable [Facts]

def fn {F : FTy → Type} [FloatOps F] (main_arg0 : FVec F S8192x4096 .f32) (main_arg1 : FVec F S16384x4096 .f32) (main_arg2 : FVec F S16384 .f32) : IVec S_ 1 :=
  let main_v0 : FVec F S8192x4096 .f32 := Host.absf main_arg0
  let main_cst : FVec F S_ .f32 := constant S_ .f32 0x7F800000#32
  let main_v1 : FVec F S8192x4096 .f32 := broadcastInDim S8192x4096 ![] bcast_S_S8192x4096 main_cst
  let main_v2 : IVec S8192x4096 1 := cmpf .olt main_v0 main_v1
  let main_c : IVec S_ 1 := constantI S_ 1 1#1
  let main_v3 : IVec S_ 1 := (fun x v => Host.reduce IntOp.andi x v reducesTo_S8192x4096_S_d0_1 h_S_) main_v2 main_c
  let main_v4 : FVec F S16384x4096 .f32 := Host.absf main_arg1
  let main_cst_0 : FVec F S_ .f32 := constant S_ .f32 0x7F800000#32
  let main_v5 : FVec F S16384x4096 .f32 := broadcastInDim S16384x4096 ![] bcast_S_S16384x4096 main_cst_0
  let main_v6 : IVec S16384x4096 1 := cmpf .olt main_v4 main_v5
  let main_c_1 : IVec S_ 1 := constantI S_ 1 1#1
  let main_v7 : IVec S_ 1 := (fun x v => Host.reduce IntOp.andi x v reducesTo_S16384x4096_S_d0_1 h_S_) main_v6 main_c_1
  let main_v8 : IVec S_ 1 := andi main_v3 main_v7
  let main_v9 : FVec F S16384 .f32 := Host.absf main_arg2
  let main_cst_2 : FVec F S_ .f32 := constant S_ .f32 0x7F800000#32
  let main_v10 : FVec F S16384 .f32 := broadcastInDim S16384 ![] bcast_S_S16384 main_cst_2
  let main_v11 : IVec S16384 1 := cmpf .olt main_v9 main_v10
  let main_c_3 : IVec S_ 1 := constantI S_ 1 1#1
  let main_v12 : IVec S_ 1 := (fun x v => Host.reduce IntOp.andi x v reducesTo_S16384_S_d0 h_S_) main_v11 main_c_3
  let main_v13 : IVec S_ 1 := andi main_v8 main_v12
  main_v13
-- ==== Kernel.lean ====
abbrev S8192x4096 : Shape := ⟨2, ![8192, 4096]⟩
abbrev S16384x4096 : Shape := ⟨2, ![16384, 4096]⟩
abbrev S16384 : Shape := ⟨1, ![16384]⟩
abbrev S_ : Shape := ⟨0, ![]⟩
abbrev S4096 : Shape := ⟨1, ![4096]⟩
abbrev S1x4096 : Shape := ⟨2, ![1, 4096]⟩
abbrev S8192 : Shape := ⟨1, ![8192]⟩
abbrev S8192x1 : Shape := ⟨2, ![8192, 1]⟩
abbrev S16384x1 : Shape := ⟨2, ![16384, 1]⟩
abbrev S1x16384 : Shape := ⟨2, ![1, 16384]⟩
abbrev S8192x16384 : Shape := ⟨2, ![8192, 16384]⟩
abbrev S1024x1024 : Shape := ⟨2, ![1024, 1024]⟩
abbrev S1024x1 : Shape := ⟨2, ![1024, 1]⟩
abbrev S1x1024 : Shape := ⟨2, ![1, 1024]⟩

abbrev nBuf : Space → Nat
  | .hbm => 84
  | .vmem => 13
  | .smem => 0
  | _ => 0

abbrev bufTy : (tb : Table) → Fin (tcTables nBuf tb) → BufTy
  | .hbm, ⟨0, _⟩ => ⟨S8192x4096, .f32⟩
  | .hbm, ⟨1, _⟩ => ⟨S16384x4096, .f32⟩
  | .hbm, ⟨2, _⟩ => ⟨S16384, .f32⟩
  | .hbm, ⟨3, _⟩ => ⟨S8192x4096, .f32⟩
  | .hbm, ⟨4, _⟩ => ⟨S_, .f32⟩
  | .hbm, ⟨5, _⟩ => ⟨S4096, .f32⟩
  | .hbm, ⟨6, _⟩ => ⟨S16384x4096, .f32⟩
  | .hbm, ⟨7, _⟩ => ⟨S_, .f32⟩
  | .hbm, ⟨8, _⟩ => ⟨S4096, .f32⟩
  | .hbm, ⟨9, _⟩ => ⟨S4096, .f32⟩
  | .hbm, ⟨10, _⟩ => ⟨S4096, .f32⟩
  | .hbm, ⟨11, _⟩ => ⟨S1x4096, .f32⟩
  | .hbm, ⟨12, _⟩ => ⟨S8192x4096, .f32⟩
  | .hbm, ⟨13, _⟩ => ⟨S8192x4096, .f32⟩
  | .hbm, ⟨14, _⟩ => ⟨S8192x4096, .f32⟩
  | .hbm, ⟨15, _⟩ => ⟨S_, .f32⟩
  | .hbm, ⟨16, _⟩ => ⟨S8192, .f32⟩
  | .hbm, ⟨17, _⟩ => ⟨S8192x1, .f32⟩
  | .hbm, ⟨18, _⟩ => ⟨S_, .f32⟩
  | .hbm, ⟨19, _⟩ => ⟨S8192x1, .f32⟩
  | .hbm, ⟨20, _⟩ => ⟨S8192x1, .f32⟩
  | .hbm, ⟨21, _⟩ => ⟨S_, .f32⟩
  | .hbm, ⟨22, _⟩ => ⟨S8192x1, .f32⟩
  | .hbm, ⟨23, _⟩ => ⟨S8192x1, .f32⟩
  | .hbm, ⟨24, _⟩ => ⟨S8192x1, .f32⟩
  | .hbm, ⟨25, _⟩ => ⟨S_, .f32⟩
  | .hbm, ⟨26, _⟩ => ⟨S_, .f32⟩
  | .hbm, ⟨27, _⟩ => ⟨S8192x1, .f32⟩
  | .hbm, ⟨28, _⟩ => ⟨S8192x1, .f32⟩
  | .hbm, ⟨29, _⟩ => ⟨S8192x1, .f32⟩
  | .hbm, ⟨30, _⟩ => ⟨S_, .f32⟩
  | .hbm, ⟨31, _⟩ => ⟨S8192x1, .f32⟩
  | .hbm, ⟨32, _⟩ => ⟨S8192x1, .f32⟩
  | .hbm, ⟨33, _⟩ => ⟨S8192x1, .f32⟩
  | .hbm, ⟨34, _⟩ => ⟨S8192x4096, .f32⟩
  | .hbm, ⟨35, _⟩ => ⟨S8192x4096, .f32⟩
  | .hbm, ⟨36, _⟩ => ⟨S8192x4096, .f32⟩
  | .hbm, ⟨37, _⟩ => ⟨S_, .f32⟩
  | .hbm, ⟨38, _⟩ => ⟨S_, .f32⟩
  | .hbm, ⟨39, _⟩ => ⟨S_, .f32⟩
  | .hbm, ⟨40, _⟩ => ⟨S8192x4096, .f32⟩
  | .hbm, ⟨41, _⟩ => ⟨S8192x4096, .f32⟩
  | .hbm, ⟨42, _⟩ => ⟨S_, .f32⟩
  | .hbm, ⟨43, _⟩ => ⟨S8192x4096, .f32⟩
  | .hbm, ⟨44, _⟩ => ⟨S8192x4096, .f32⟩
  | .hbm, ⟨45, _⟩ => ⟨S1x4096, .f32⟩
  | .hbm, ⟨46, _⟩ => ⟨S16384x4096, .f32⟩
  | .hbm, ⟨47, _⟩ => ⟨S16384x4096, .f32⟩
  | .hbm, ⟨48, _⟩ => ⟨S16384x4096, .f32⟩
  | .hbm, ⟨49, _⟩ => ⟨S_, .f32⟩
  | .hbm, ⟨50, _⟩ => ⟨S16384, .f32⟩
  | .hbm, ⟨51, _⟩ => ⟨S16384x1, .f32⟩
  | .hbm, ⟨52, _⟩ => ⟨S_, .f32⟩
  | .hbm, ⟨53, _⟩ => ⟨S16384x1, .f32⟩
  | .hbm, ⟨54, _⟩ => ⟨S16384x1, .f32⟩
  | .hbm, ⟨55, _⟩ => ⟨S_, .f32⟩
  | .hbm, ⟨56, _⟩ => ⟨S16384x1, .f32⟩
  | .hbm, ⟨57, _⟩ => ⟨S16384x1, .f32⟩
  | .hbm, ⟨58, _⟩ => ⟨S16384x1, .f32⟩
  | .hbm, ⟨59, _⟩ => ⟨S_, .f32⟩
  | .hbm, ⟨60, _⟩ => ⟨S_, .f32⟩
  | .hbm, ⟨61, _⟩ => ⟨S16384x1, .f32⟩
  | .hbm, ⟨62, _⟩ => ⟨S16384x1, .f32⟩
  | .hbm, ⟨63, _⟩ => ⟨S16384x1, .f32⟩
  | .hbm, ⟨64, _⟩ => ⟨S_, .f32⟩
  | .hbm, ⟨65, _⟩ => ⟨S16384x1, .f32⟩
  | .hbm, ⟨66, _⟩ => ⟨S16384x1, .f32⟩
  | .hbm, ⟨67, _⟩ => ⟨S16384x1, .f32⟩
  | .hbm, ⟨68, _⟩ => ⟨S16384x4096, .f32⟩
  | .hbm, ⟨69, _⟩ => ⟨S16384x4096, .f32⟩
  | .hbm, ⟨70, _⟩ => ⟨S16384x4096, .f32⟩
  | .hbm, ⟨71, _⟩ => ⟨S_, .f32⟩
  | .hbm, ⟨72, _⟩ => ⟨S_, .f32⟩
  | .hbm, ⟨73, _⟩ => ⟨S_, .f32⟩
  | .hbm, ⟨74, _⟩ => ⟨S16384x4096, .f32⟩
  | .hbm, ⟨75, _⟩ => ⟨S16384x4096, .f32⟩
  | .hbm, ⟨76, _⟩ => ⟨S_, .f32⟩
  | .hbm, ⟨77, _⟩ => ⟨S16384x4096, .f32⟩
  | .hbm, ⟨78, _⟩ => ⟨S16384x4096, .f32⟩
  | .hbm, ⟨79, _⟩ => ⟨S8192x4096, .bf16⟩
  | .hbm, ⟨80, _⟩ => ⟨S16384x4096, .bf16⟩
  | .hbm, ⟨81, _⟩ => ⟨S1x16384, .f32⟩
  | .hbm, ⟨82, _⟩ => ⟨S1x16384, .f32⟩
  | .hbm, ⟨83, _⟩ => ⟨S8192x16384, .f32⟩
  | .local _ .vmem, ⟨0, _⟩ => ⟨S1024x1024, .bf16⟩
  | .local _ .vmem, ⟨1, _⟩ => ⟨S1024x1024, .bf16⟩
  | .local _ .vmem, ⟨2, _⟩ => ⟨S1024x1024, .bf16⟩
  | .local _ .vmem, ⟨3, _⟩ => ⟨S1024x1024, .bf16⟩
  | .local _ .vmem, ⟨4, _⟩ => ⟨S1024x1, .f32⟩
  | .local _ .vmem, ⟨5, _⟩ => ⟨S1024x1, .f32⟩
  | .local _ .vmem, ⟨6, _⟩ => ⟨S1x1024, .f32⟩
  | .local _ .vmem, ⟨7, _⟩ => ⟨S1x1024, .f32⟩
  | .local _ .vmem, ⟨8, _⟩ => ⟨S1x1024, .f32⟩
  | .local _ .vmem, ⟨9, _⟩ => ⟨S1x1024, .f32⟩
  | .local _ .vmem, ⟨10, _⟩ => ⟨S1024x1024, .f32⟩
  | .local _ .vmem, ⟨11, _⟩ => ⟨S1024x1024, .f32⟩
  | .local _ .vmem, ⟨12, _⟩ => ⟨S1024x1024, .f32⟩
  | _, _ => ⟨S8192x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_cst : Ref sig .tc := ⟨.hbm, 4, rfl⟩
abbrev main_v1 : Ref sig .tc := ⟨.hbm, 5, rfl⟩
abbrev main_v2 : Ref sig .tc := ⟨.hbm, 6, rfl⟩
abbrev main_cst_0 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_cst_1 : Ref sig .tc := ⟨.hbm, 15, rfl⟩
abbrev main_v10 : Ref sig .tc := ⟨.hbm, 16, rfl⟩
abbrev main_v11 : Ref sig .tc := ⟨.hbm, 17, rfl⟩
abbrev main_cst_2 : Ref sig .tc := ⟨.hbm, 18, rfl⟩
abbrev main_v12 : Ref sig .tc := ⟨.hbm, 19, rfl⟩
abbrev main_v13 : Ref sig .tc := ⟨.hbm, 20, rfl⟩
abbrev main_cst_3 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_cst_4 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_cst_5 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_v25 : Ref sig .tc := ⟨.hbm, 35, rfl⟩
abbrev main_v26 : Ref sig .tc := ⟨.hbm, 36, rfl⟩
abbrev main_cst_6 : Ref sig .tc := ⟨.hbm, 37, rfl⟩
abbrev main_cst_7 : Ref sig .tc := ⟨.hbm, 38, rfl⟩
abbrev main_call1_v0 : Ref sig .tc := ⟨.hbm, 39, rfl⟩
abbrev main_call1_v1 : Ref sig .tc := ⟨.hbm, 40, rfl⟩
abbrev main_call1_v2 : Ref sig .tc := ⟨.hbm, 41, rfl⟩
abbrev main_call1_v3 : Ref sig .tc := ⟨.hbm, 42, rfl⟩
abbrev main_call1_v4 : Ref sig .tc := ⟨.hbm, 43, rfl⟩
abbrev main_v27 : Ref sig .tc := ⟨.hbm, 44, rfl⟩
abbrev main_v28 : Ref sig .tc := ⟨.hbm, 45, rfl⟩
abbrev main_v29 : Ref sig .tc := ⟨.hbm, 46, rfl⟩
abbrev main_v30 : Ref sig .tc := ⟨.hbm, 47, rfl⟩
abbrev main_v31 : Ref sig .tc := ⟨.hbm, 48, rfl⟩
abbrev main_cst_8 : Ref sig .tc := ⟨.hbm, 49, rfl⟩
abbrev main_v32 : Ref sig .tc := ⟨.hbm, 50, rfl⟩
abbrev main_v33 : Ref sig .tc := ⟨.hbm, 51, rfl⟩
abbrev main_cst_9 : Ref sig .tc := ⟨.hbm, 52, rfl⟩
abbrev main_v34 : Ref sig .tc := ⟨.hbm, 53, rfl⟩
abbrev main_v35 : Ref sig .tc := ⟨.hbm, 54, rfl⟩
abbrev main_cst_10 : Ref sig .tc := ⟨.hbm, 55, rfl⟩
abbrev main_v36 : Ref sig .tc := ⟨.hbm, 56, rfl⟩
abbrev main_v37 : Ref sig .tc := ⟨.hbm, 57, rfl⟩
abbrev main_v38 : Ref sig .tc := ⟨.hbm, 58, rfl⟩
abbrev main_cst_11 : Ref sig .tc := ⟨.hbm, 59, rfl⟩
abbrev main_v39 : Ref sig .tc := ⟨.hbm, 60, rfl⟩
abbrev main_v40 : Ref sig .tc := ⟨.hbm, 61, rfl⟩
abbrev main_v41 : Ref sig .tc := ⟨.hbm, 62, rfl⟩
abbrev main_v42 : Ref sig .tc := ⟨.hbm, 63, rfl⟩
abbrev main_cst_12 : Ref sig .tc := ⟨.hbm, 64, rfl⟩
abbrev main_v43 : Ref sig .tc := ⟨.hbm, 65, rfl⟩
abbrev main_v44 : Ref sig .tc := ⟨.hbm, 66, rfl⟩
abbrev main_v45 : Ref sig .tc := ⟨.hbm, 67, rfl⟩
abbrev main_v46 : Ref sig .tc := ⟨.hbm, 68, rfl⟩
abbrev main_v47 : Ref sig .tc := ⟨.hbm, 69, rfl⟩
abbrev main_v48 : Ref sig .tc := ⟨.hbm, 70, rfl⟩
abbrev main_cst_13 : Ref sig .tc := ⟨.hbm, 71, rfl⟩
abbrev main_cst_14 : Ref sig .tc := ⟨.hbm, 72, rfl⟩
abbrev main_call3_v0 : Ref sig .tc := ⟨.hbm, 73, rfl⟩
abbrev main_call3_v1 : Ref sig .tc := ⟨.hbm, 74, rfl⟩
abbrev main_call3_v2 : Ref sig .tc := ⟨.hbm, 75, rfl⟩
abbrev main_call3_v3 : Ref sig .tc := ⟨.hbm, 76, rfl⟩
abbrev main_call3_v4 : Ref sig .tc := ⟨.hbm, 77, rfl⟩
abbrev main_v49 : Ref sig .tc := ⟨.hbm, 78, rfl⟩
abbrev main_v50 : Ref sig .tc := ⟨.hbm, 79, rfl⟩
abbrev main_v51 : Ref sig .tc := ⟨.hbm, 80, rfl⟩
abbrev main_v52 : Ref sig .tc := ⟨.hbm, 81, rfl⟩
abbrev main_v53 : Ref sig .tc := ⟨.hbm, 82, rfl⟩
abbrev main_v54 : Ref sig .tc := ⟨.hbm, 83, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_scratch0 : Ref sig .tc := ⟨.vmem, 12, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11

abbrev nD : Nat := 1
abbrev τ : Topo := Topo.v7x

variable {F : FTy → Type} [FloatOps F]

abbrev grid0 : Pipeline.Grid := ⟨3, ![8, 16, 4], ![false, false, false]⟩

def k0_cond2 (i : grid0.Coords) : BitVec 1 :=
  let arg2 : BitVec 32 := BitVec.ofNat 32 (i 2).val
  let c3_i32 : BitVec 32 := 3#32
  let v13 : BitVec 1 := Scalar.cmpi .eq arg2 c3_i32
  let v14 : BitVec 32 := Scalar.extui v13
  let c0_i32_8 : BitVec 32 := 0#32
  let v15 : BitVec 1 := Scalar.cmpi .ne v14 c0_i32_8
  v15

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg1.toNat]

def cc0_transform_4 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg1.toNat]

def cc0_transform_5 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false, false]

abbrev stage0_3 : Fin 2 → Memref sig .tc .vmem S1x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true, false]

abbrev stage0_4 : Fin 2 → Memref sig .tc .vmem S1x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![false, true, false]

abbrev stage0_5 : Fin 2 → Memref sig .tc .vmem S1024x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true, false]

class Facts₀ : Prop where
  reducesTo_S8192x4096_S4096_d0 : S8192x4096.ReducesTo [0] S4096
  h_S_ : 0 < S_.numel
  reducesTo_S16384x4096_S4096_d0 : S16384x4096.ReducesTo [0] S4096
  bcast_S4096_S1x4096_1 : S4096.BroadcastsInDim S1x4096 (![1] : Fin 1 → Fin S1x4096.rank)
  bcast_S1x4096_S8192x4096_0_1 : S1x4096.BroadcastsInDim S8192x4096 (![0, 1] : Fin 2 → Fin S8192x4096.rank)
  reducesTo_S8192x4096_S8192_d1 : S8192x4096.ReducesTo [1] S8192
  bcast_S8192_S8192x1_0 : S8192.BroadcastsInDim S8192x1 (![0] : Fin 1 → Fin S8192x1.rank)
  bcast_S_S8192x1 : S_.BroadcastsInDim S8192x1 (![] : Fin 0 → Fin S8192x1.rank)
  bcast_S8192x1_S8192x4096_0_1 : S8192x1.BroadcastsInDim S8192x4096 (![0, 1] : Fin 2 → Fin S8192x4096.rank)
  bcast_S_S8192x4096 : S_.BroadcastsInDim S8192x4096 (![] : Fin 0 → Fin S8192x4096.rank)
  bcast_S1x4096_S16384x4096_0_1 : S1x4096.BroadcastsInDim S16384x4096 (![0, 1] : Fin 2 → Fin S16384x4096.rank)
  reducesTo_S16384x4096_S16384_d1 : S16384x4096.ReducesTo [1] S16384
  bcast_S16384_S16384x1_0 : S16384.BroadcastsInDim S16384x1 (![0] : Fin 1 → Fin S16384x1.rank)
  bcast_S_S16384x1 : S_.BroadcastsInDim S16384x1 (![] : Fin 0 → Fin S16384x1.rank)
  bcast_S16384x1_S16384x4096_0_1 : S16384x1.BroadcastsInDim S16384x4096 (![0, 1] : Fin 2 → Fin S16384x4096.rank)
  bcast_S_S16384x4096 : S_.BroadcastsInDim S16384x4096 (![] : Fin 0 → Fin S16384x4096.rank)
  bitsLt_bf16_f32 : FTy.bits .bf16 < FTy.bits .f32
  shapeCasts_S16384x1_S1x16384 : S16384x1.ShapeCasts S1x16384
  shapeCasts_S16384_S1x16384 : S16384.ShapeCasts S1x16384
  inb_S1024x1024_S1024x1024_0_0 : ∀ a, (![0, 0] : Fin 2 → Nat) a + S1024x1024.size a ≤ S1024x1024.size a
  h_S1024x1024 : 0 < S1024x1024.numel
  shapeCasts_S1024x1024_S1024x1024 : S1024x1024.ShapeCasts S1024x1024
  inb_S1024x1_S1024x1_0_0 : ∀ a, (![0, 0] : Fin 2 → Nat) a + S1024x1.size a ≤ S1024x1.size a
  h_S1024x1 : 0 < S1024x1.numel
  shapeCasts_S1024x1_S1024x1 : S1024x1.ShapeCasts S1024x1
  broadcasts_S1024x1_S1024x1024 : S1024x1.Broadcasts S1024x1024
  inb_S1x1024_S1x1024_0_0 : ∀ a, (![0, 0] : Fin 2 → Nat) a + S1x1024.size a ≤ S1x1024.size a
  h_S1x1024 : 0 < S1x1024.numel
  shapeCasts_S1x1024_S1x1024 : S1x1024.ShapeCasts S1x1024
  broadcasts_S1x1024_S1024x1024 : S1x1024.Broadcasts S1024x1024
  dot_S1024x1024_S1024x1024_S1024x1024_1_1_0_0_n_n_wf : DotDims.WF S1024x1024 S1024x1024 S1024x1024 [1] [1] [0] [0] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1024x1024.size a ≤ S8192x4096.size a
  hwx0_0 : ∀ i : grid0.Coords, EltTy.bits .bf16 = 32 ∨ (Rect.block (s := S8192x4096) S1024x1024.size (cc0_transform_0 i) (hinb0_0 i)).WholeWords (EltTy.packing .bf16)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1024x1024.size a ≤ S16384x4096.size a
  hwx0_1 : ∀ i : grid0.Coords, EltTy.bits .bf16 = 32 ∨ (Rect.block (s := S16384x4096) S1024x1024.size (cc0_transform_1 i) (hinb0_1 i)).WholeWords (EltTy.packing .bf16)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1024x1.size a ≤ S8192x1.size a
  hwx0_2 : ∀ i : grid0.Coords, EltTy.bits .f32 = 32 ∨ (Rect.block (s := S8192x1) S1024x1.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1x1024.size a ≤ S1x16384.size a
  hwx0_3 : ∀ i : grid0.Coords, EltTy.bits .f32 = 32 ∨ (Rect.block (s := S1x16384) S1x1024.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S1x1024.size a ≤ S1x16384.size a
  hwx0_4 : ∀ i : grid0.Coords, EltTy.bits .f32 = 32 ∨ (Rect.block (s := S1x16384) S1x1024.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S1024x1024.size a ≤ S8192x16384.size a
  hwx0_5 : ∀ i : grid0.Coords, EltTy.bits .f32 = 32 ∨ (Rect.block (s := S8192x16384) S1024x1024.size (cc0_transform_5 i) (hinb0_5 i)).WholeWords (EltTy.packing .f32)

variable [Facts₀]

def dot_S1024x1024_S1024x1024_S1024x1024_1_1_0_0_n_n : DotDims S1024x1024 S1024x1024 S1024x1024 where
  lhsContracting := [1]
  rhsContracting := [1]
  lhsNonContracting := [0]
  rhsNonContracting := [0]
  lhsBatch := []
  rhsBatch := []
  wf := dot_S1024x1024_S1024x1024_S1024x1024_1_1_0_0_n_n_wf

abbrev win0_0 : Pipeline.Window sig grid0 :=
  Pipeline.Window.ofSpec (Memref.whole main_v50) S1024x1024.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v51) S1024x1024.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v23) S1024x1.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v52) S1x1024.size cc0_transform_3 reads0_3 false false 2 stage0_3 sem0_3
    hrank0 hreads0_3 hinb0_3 nbuf0_3 (Memref.isWhole_whole _) hwx0_3 hstage0_3

abbrev win0_4 : Pipeline.Window sig grid0 :=
  Pipeline.Window.ofSpec (Memref.whole main_v53) S1x1024.size cc0_transform_4 reads0_4 false false 2 stage0_4 sem0_4
    hrank0 hreads0_4 hinb0_4 nbuf0_4 (Memref.isWhole_whole _) hwx0_4 hstage0_4

abbrev win0_5 : Pipeline.Window sig grid0 :=
  Pipeline.Window.ofSpec (Memref.whole main_v54) S1024x1024.size cc0_transform_5 reads0_5 true false 2 stage0_5 sem0_5
    hrank0 hreads0_5 hinb0_5 nbuf0_5 (Memref.isWhole_whole _) hwx0_5 hstage0_5

abbrev win0 : Fin 6 → Pipeline.Window sig grid0 := fun | 0 => win0_0 | 1 => win0_1 | 2 => win0_2 | 3 => win0_3 | 4 => win0_4 | 5 => win0_5 | ⟨_ + 6, h⟩ => absurd h (Nat.not_lt.2 (Nat.le_add_left _ _))
abbrev spec0 : Fin 6 → Pipeline.WinSpec sig grid0.rank := fun w => (win0 w).toWinSpec

abbrev idle0 : Fin 6 → grid0.Coords → Bool := fun | 0 => fun _ => false | 1 => fun _ => false | 2 => fun _ => false | 3 => fun _ => false | 4 => fun _ => false | 5 => fun i => !(k0_cond2 i == 1#1) | ⟨_ + 6, h⟩ => absurd h (Nat.not_lt.2 (Nat.le_add_left _ _))

class Facts : Prop extends Facts₀ where

variable [Facts]
-- ==== ReferenceIdeal.lean ====
abbrev S8192x4096 : Shape := ⟨2, ![8192, 4096]⟩
abbrev S16384x4096 : Shape := ⟨2, ![16384, 4096]⟩
abbrev S16384 : Shape := ⟨1, ![16384]⟩
abbrev S_ : Shape := ⟨0, ![]⟩
abbrev S4096 : Shape := ⟨1, ![4096]⟩
abbrev S1x4096 : Shape := ⟨2, ![1, 4096]⟩
abbrev S8192 : Shape := ⟨1, ![8192]⟩
abbrev S8192x1 : Shape := ⟨2, ![8192, 1]⟩
abbrev S16384x1 : Shape := ⟨2, ![16384, 1]⟩
abbrev S8192x16384 : Shape := ⟨2, ![8192, 16384]⟩
abbrev S1x16384 : Shape := ⟨2, ![1, 16384]⟩

abbrev nBuf : Space → Nat
  | .hbm => 88
  | .vmem => 0
  | .smem => 0
  | _ => 0

abbrev bufTy : (tb : Table) → Fin (tcTables nBuf tb) → BufTy
  | .hbm, ⟨0, _⟩ => ⟨S8192x4096, .f32⟩
  | .hbm, ⟨1, _⟩ => ⟨S16384x4096, .f32⟩
  | .hbm, ⟨2, _⟩ => ⟨S16384, .f32⟩
  | .hbm, ⟨3, _⟩ => ⟨S8192x4096, .f32⟩
  | .hbm, ⟨4, _⟩ => ⟨S_, .f32⟩
  | .hbm, ⟨5, _⟩ => ⟨S4096, .f32⟩
  | .hbm, ⟨6, _⟩ => ⟨S16384x4096, .f32⟩
  | .hbm, ⟨7, _⟩ => ⟨S_, .f32⟩
  | .hbm, ⟨8, _⟩ => ⟨S4096, .f32⟩
  | .hbm, ⟨9, _⟩ => ⟨S4096, .f32⟩
  | .hbm, ⟨10, _⟩ => ⟨S4096, .f32⟩
  | .hbm, ⟨11, _⟩ => ⟨S1x4096, .f32⟩
  | .hbm, ⟨12, _⟩ => ⟨S8192x4096, .f32⟩
  | .hbm, ⟨13, _⟩ => ⟨S8192x4096, .f32⟩
  | .hbm, ⟨14, _⟩ => ⟨S8192x4096, .f32⟩
  | .hbm, ⟨15, _⟩ => ⟨S_, .f32⟩
  | .hbm, ⟨16, _⟩ => ⟨S8192, .f32⟩
  | .hbm, ⟨17, _⟩ => ⟨S8192x1, .f32⟩
  | .hbm, ⟨18, _⟩ => ⟨S_, .f32⟩
  | .hbm, ⟨19, _⟩ => ⟨S8192x1, .f32⟩
  | .hbm, ⟨20, _⟩ => ⟨S8192x1, .f32⟩
  | .hbm, ⟨21, _⟩ => ⟨S_, .f32⟩
  | .hbm, ⟨22, _⟩ => ⟨S8192x1, .f32⟩
  | .hbm, ⟨23, _⟩ => ⟨S8192x1, .f32⟩
  | .hbm, ⟨24, _⟩ => ⟨S8192x1, .f32⟩
  | .hbm, ⟨25, _⟩ => ⟨S_, .f32⟩
  | .hbm, ⟨26, _⟩ => ⟨S_, .f32⟩
  | .hbm, ⟨27, _⟩ => ⟨S8192x1, .f32⟩
  | .hbm, ⟨28, _⟩ => ⟨S8192x1, .f32⟩
  | .hbm, ⟨29, _⟩ => ⟨S8192x1, .f32⟩
  | .hbm, ⟨30, _⟩ => ⟨S_, .f32⟩
  | .hbm, ⟨31, _⟩ => ⟨S8192x1, .f32⟩
  | .hbm, ⟨32, _⟩ => ⟨S8192x1, .f32⟩
  | .hbm, ⟨33, _⟩ => ⟨S8192x1, .f32⟩
  | .hbm, ⟨34, _⟩ => ⟨S8192x4096, .f32⟩
  | .hbm, ⟨35, _⟩ => ⟨S8192x4096, .f32⟩
  | .hbm, ⟨36, _⟩ => ⟨S8192x4096, .f32⟩
  | .hbm, ⟨37, _⟩ => ⟨S_, .f32⟩
  | .hbm, ⟨38, _⟩ => ⟨S_, .f32⟩
  | .hbm, ⟨39, _⟩ => ⟨S_, .f32⟩
  | .hbm, ⟨40, _⟩ => ⟨S8192x4096, .f32⟩
  | .hbm, ⟨41, _⟩ => ⟨S8192x4096, .f32⟩
  | .hbm, ⟨42, _⟩ => ⟨S_, .f32⟩
  | .hbm, ⟨43, _⟩ => ⟨S8192x4096, .f32⟩
  | .hbm, ⟨44, _⟩ => ⟨S8192x4096, .f32⟩
  | .hbm, ⟨45, _⟩ => ⟨S1x4096, .f32⟩
  | .hbm, ⟨46, _⟩ => ⟨S16384x4096, .f32⟩
  | .hbm, ⟨47, _⟩ => ⟨S16384x4096, .f32⟩
  | .hbm, ⟨48, _⟩ => ⟨S16384x4096, .f32⟩
  | .hbm, ⟨49, _⟩ => ⟨S_, .f32⟩
  | .hbm, ⟨50, _⟩ => ⟨S16384, .f32⟩
  | .hbm, ⟨51, _⟩ => ⟨S16384x1, .f32⟩
  | .hbm, ⟨52, _⟩ => ⟨S_, .f32⟩
  | .hbm, ⟨53, _⟩ => ⟨S16384x1, .f32⟩
  | .hbm, ⟨54, _⟩ => ⟨S16384x1, .f32⟩
  | .hbm, ⟨55, _⟩ => ⟨S_, .f32⟩
  | .hbm, ⟨56, _⟩ => ⟨S16384x1, .f32⟩
  | .hbm, ⟨57, _⟩ => ⟨S16384x1, .f32⟩
  | .hbm, ⟨58, _⟩ => ⟨S16384x1, .f32⟩
  | .hbm, ⟨59, _⟩ => ⟨S_, .f32⟩
  | .hbm, ⟨60, _⟩ => ⟨S_, .f32⟩
  | .hbm, ⟨61, _⟩ => ⟨S16384x1, .f32⟩
  | .hbm, ⟨62, _⟩ => ⟨S16384x1, .f32⟩
  | .hbm, ⟨63, _⟩ => ⟨S16384x1, .f32⟩
  | .hbm, ⟨64, _⟩ => ⟨S_, .f32⟩
  | .hbm, ⟨65, _⟩ => ⟨S16384x1, .f32⟩
  | .hbm, ⟨66, _⟩ => ⟨S16384x1, .f32⟩
  | .hbm, ⟨67, _⟩ => ⟨S16384x1, .f32⟩
  | .hbm, ⟨68, _⟩ => ⟨S16384x4096, .f32⟩
  | .hbm, ⟨69, _⟩ => ⟨S16384x4096, .f32⟩
  | .hbm, ⟨70, _⟩ => ⟨S16384x4096, .f32⟩
  | .hbm, ⟨71, _⟩ => ⟨S_, .f32⟩
  | .hbm, ⟨72, _⟩ => ⟨S_, .f32⟩
  | .hbm, ⟨73, _⟩ => ⟨S_, .f32⟩
  | .hbm, ⟨74, _⟩ => ⟨S16384x4096, .f32⟩
  | .hbm, ⟨75, _⟩ => ⟨S16384x4096, .f32⟩
  | .hbm, ⟨76, _⟩ => ⟨S_, .f32⟩
  | .hbm, ⟨77, _⟩ => ⟨S16384x4096, .f32⟩
  | .hbm, ⟨78, _⟩ => ⟨S16384x4096, .f32⟩
  | .hbm, ⟨79, _⟩ => ⟨S8192x16384, .f32⟩
  | .hbm, ⟨80, _⟩ => ⟨S8192x16384, .f32⟩
  | .hbm, ⟨81, _⟩ => ⟨S8192x16384, .f32⟩
  | .hbm, ⟨82, _⟩ => ⟨S1x16384, .f32⟩
  | .hbm, ⟨83, _⟩ => ⟨S8192x16384, .f32⟩
  | .hbm, ⟨84, _⟩ => ⟨S8192x16384, .f32⟩
  | .hbm, ⟨85, _⟩ => ⟨S1x16384, .f32⟩
  | .hbm, ⟨86, _⟩ => ⟨S8192x16384, .f32⟩
  | .hbm, ⟨87, _⟩ => ⟨S8192x16384, .f32⟩
  | _, _ => ⟨S8192x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_cst : Ref sig .tc := ⟨.hbm, 4, rfl⟩
abbrev main_v1 : Ref sig .tc := ⟨.hbm, 5, rfl⟩
abbrev main_v2 : Ref sig .tc := ⟨.hbm, 6, rfl⟩
abbrev main_cst_0 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_cst_1 : Ref sig .tc := ⟨.hbm, 15, rfl⟩
abbrev main_v10 : Ref sig .tc := ⟨.hbm, 16, rfl⟩
abbrev main_v11 : Ref sig .tc := ⟨.hbm, 17, rfl⟩
abbrev main_cst_2 : Ref sig .tc := ⟨.hbm, 18, rfl⟩
abbrev main_v12 : Ref sig .tc := ⟨.hbm, 19, rfl⟩
abbrev main_v13 : Ref sig .tc := ⟨.hbm, 20, rfl⟩
abbrev main_cst_3 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_cst_4 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_cst_5 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_v25 : Ref sig .tc := ⟨.hbm, 35, rfl⟩
abbrev main_v26 : Ref sig .tc := ⟨.hbm, 36, rfl⟩
abbrev main_cst_6 : Ref sig .tc := ⟨.hbm, 37, rfl⟩
abbrev main_cst_7 : Ref sig .tc := ⟨.hbm, 38, rfl⟩
abbrev main_call1_v0 : Ref sig .tc := ⟨.hbm, 39, rfl⟩
abbrev main_call1_v1 : Ref sig .tc := ⟨.hbm, 40, rfl⟩
abbrev main_call1_v2 : Ref sig .tc := ⟨.hbm, 41, rfl⟩
abbrev main_call1_v3 : Ref sig .tc := ⟨.hbm, 42, rfl⟩
abbrev main_call1_v4 : Ref sig .tc := ⟨.hbm, 43, rfl⟩
abbrev main_v27 : Ref sig .tc := ⟨.hbm, 44, rfl⟩
abbrev main_v28 : Ref sig .tc := ⟨.hbm, 45, rfl⟩
abbrev main_v29 : Ref sig .tc := ⟨.hbm, 46, rfl⟩
abbrev main_v30 : Ref sig .tc := ⟨.hbm, 47, rfl⟩
abbrev main_v31 : Ref sig .tc := ⟨.hbm, 48, rfl⟩
abbrev main_cst_8 : Ref sig .tc := ⟨.hbm, 49, rfl⟩
abbrev main_v32 : Ref sig .tc := ⟨.hbm, 50, rfl⟩
abbrev main_v33 : Ref sig .tc := ⟨.hbm, 51, rfl⟩
abbrev main_cst_9 : Ref sig .tc := ⟨.hbm, 52, rfl⟩
abbrev main_v34 : Ref sig .tc := ⟨.hbm, 53, rfl⟩
abbrev main_v35 : Ref sig .tc := ⟨.hbm, 54, rfl⟩
abbrev main_cst_10 : Ref sig .tc := ⟨.hbm, 55, rfl⟩
abbrev main_v36 : Ref sig .tc := ⟨.hbm, 56, rfl⟩
abbrev main_v37 : Ref sig .tc := ⟨.hbm, 57, rfl⟩
abbrev main_v38 : Ref sig .tc := ⟨.hbm, 58, rfl⟩
abbrev main_cst_11 : Ref sig .tc := ⟨.hbm, 59, rfl⟩
abbrev main_v39 : Ref sig .tc := ⟨.hbm, 60, rfl⟩
abbrev main_v40 : Ref sig .tc := ⟨.hbm, 61, rfl⟩
abbrev main_v41 : Ref sig .tc := ⟨.hbm, 62, rfl⟩
abbrev main_v42 : Ref sig .tc := ⟨.hbm, 63, rfl⟩
abbrev main_cst_12 : Ref sig .tc := ⟨.hbm, 64, rfl⟩
abbrev main_v43 : Ref sig .tc := ⟨.hbm, 65, rfl⟩
abbrev main_v44 : Ref sig .tc := ⟨.hbm, 66, rfl⟩
abbrev main_v45 : Ref sig .tc := ⟨.hbm, 67, rfl⟩
abbrev main_v46 : Ref sig .tc := ⟨.hbm, 68, rfl⟩
abbrev main_v47 : Ref sig .tc := ⟨.hbm, 69, rfl⟩
abbrev main_v48 : Ref sig .tc := ⟨.hbm, 70, rfl⟩
abbrev main_cst_13 : Ref sig .tc := ⟨.hbm, 71, rfl⟩
abbrev main_cst_14 : Ref sig .tc := ⟨.hbm, 72, rfl⟩
abbrev main_call3_v0 : Ref sig .tc := ⟨.hbm, 73, rfl⟩
abbrev main_call3_v1 : Ref sig .tc := ⟨.hbm, 74, rfl⟩
abbrev main_call3_v2 : Ref sig .tc := ⟨.hbm, 75, rfl⟩
abbrev main_call3_v3 : Ref sig .tc := ⟨.hbm, 76, rfl⟩
abbrev main_call3_v4 : Ref sig .tc := ⟨.hbm, 77, rfl⟩
abbrev main_v49 : Ref sig .tc := ⟨.hbm, 78, rfl⟩
abbrev main_v50 : Ref sig .tc := ⟨.hbm, 79, rfl⟩
abbrev main_v51 : Ref sig .tc := ⟨.hbm, 80, rfl⟩
abbrev main_v52 : Ref sig .tc := ⟨.hbm, 81, rfl⟩
abbrev main_v53 : Ref sig .tc := ⟨.hbm, 82, rfl⟩
abbrev main_v54 : Ref sig .tc := ⟨.hbm, 83, rfl⟩
abbrev main_v55 : Ref sig .tc := ⟨.hbm, 84, rfl⟩
abbrev main_v56 : Ref sig .tc := ⟨.hbm, 85, rfl⟩
abbrev main_v57 : Ref sig .tc := ⟨.hbm, 86, rfl⟩
abbrev main_v58 : Ref sig .tc := ⟨.hbm, 87, rfl⟩

abbrev nD : Nat := 1
abbrev τ : Topo := Topo.v7x

variable {F : FTy → Type} [FloatOps F]

class Facts₀ : Prop where
  reducesTo_S8192x4096_S4096_d0 : S8192x4096.ReducesTo [0] S4096
  h_S_ : 0 < S_.numel
  reducesTo_S16384x4096_S4096_d0 : S16384x4096.ReducesTo [0] S4096
  bcast_S4096_S1x4096_1 : S4096.BroadcastsInDim S1x4096 (![1] : Fin 1 → Fin S1x4096.rank)
  bcast_S1x4096_S8192x4096_0_1 : S1x4096.BroadcastsInDim S8192x4096 (![0, 1] : Fin 2 → Fin S8192x4096.rank)
  reducesTo_S8192x4096_S8192_d1 : S8192x4096.ReducesTo [1] S8192
  bcast_S8192_S8192x1_0 : S8192.BroadcastsInDim S8192x1 (![0] : Fin 1 → Fin S8192x1.rank)
  bcast_S_S8192x1 : S_.BroadcastsInDim S8192x1 (![] : Fin 0 → Fin S8192x1.rank)
  bcast_S8192x1_S8192x4096_0_1 : S8192x1.BroadcastsInDim S8192x4096 (![0, 1] : Fin 2 → Fin S8192x4096.rank)
  bcast_S_S8192x4096 : S_.BroadcastsInDim S8192x4096 (![] : Fin 0 → Fin S8192x4096.rank)
  bcast_S1x4096_S16384x4096_0_1 : S1x4096.BroadcastsInDim S16384x4096 (![0, 1] : Fin 2 → Fin S16384x4096.rank)
  reducesTo_S16384x4096_S16384_d1 : S16384x4096.ReducesTo [1] S16384
  bcast_S16384_S16384x1_0 : S16384.BroadcastsInDim S16384x1 (![0] : Fin 1 → Fin S16384x1.rank)
  bcast_S_S16384x1 : S_.BroadcastsInDim S16384x1 (![] : Fin 0 → Fin S16384x1.rank)
  bcast_S16384x1_S16384x4096_0_1 : S16384x1.BroadcastsInDim S16384x4096 (![0, 1] : Fin 2 → Fin S16384x4096.rank)
  bcast_S_S16384x4096 : S_.BroadcastsInDim S16384x4096 (![] : Fin 0 → Fin S16384x4096.rank)
  bcast_S8192x1_S8192x16384_0_1 : S8192x1.BroadcastsInDim S8192x16384 (![0, 1] : Fin 2 → Fin S8192x16384.rank)
  transposes_S16384x1_S1x16384_1_0 : S16384x1.Transposes [1, 0] S1x16384
  bcast_S1x16384_S8192x16384_0_1 : S1x16384.BroadcastsInDim S8192x16384 (![0, 1] : Fin 2 → Fin S8192x16384.rank)
  bcast_S16384_S1x16384_1 : S16384.BroadcastsInDim S1x16384 (![1] : Fin 1 → Fin S1x16384.rank)
  dot_S8192x4096_S16384x4096_S8192x16384_1_1_0_0_n_n_wf : DotDims.WF S8192x4096 S16384x4096 S8192x16384 [1] [1] [0] [0] [] []

variable [Facts₀]

def dot_S8192x4096_S16384x4096_S8192x16384_1_1_0_0_n_n : DotDims S8192x4096 S16384x4096 S8192x16384 where
  lhsContracting := [1]
  rhsContracting := [1]
  lhsNonContracting := [0]
  rhsNonContracting := [0]
  lhsBatch := []
  rhsBatch := []
  wf := dot_S8192x4096_S16384x4096_S8192x16384_1_1_0_0_n_n_wf

class Facts : Prop extends Facts₀ where

variable [Facts]
-- ==== Proof.StepContents.lean ====
/-
  What one grid point of the scaled product leaves behind.

  The grid is (row block, column block, contraction block) = 8 × 16 × 4, the contraction block moving fastest. At a
  point whose contraction block is 0 the body clears its accumulator and adds the point's partial product to it; at
  contraction blocks 1 and 2 it adds the point's partial product to what the point before left; at contraction block 3
  it adds the last partial product and then stores the finished output block — accumulator times the row scales times
  the column scales plus the bias row. Below: the accumulator after each of the three kinds of point, and the output
  block after the last kind, each as the body's own arithmetic applied to the point's input blocks — every load and
  store of the body goes through the whole buffer at offset zero, so each store leaves exactly its payload and each
  load reads exactly what the last store left.
-/
import proofs.«113916_j18107582120420_1_alg».proof.Proof.Gen.KernelIdeal.Frame
import Idealize.ShloMosaic.Lib.Pipeline.Value
import Idealize.ShloMosaic.Lib.Tactic

noncomputable section

open Idealize.ShloMosaic Idealize.ShloMosaic.TcCoe Idealize.SL.Sem

namespace Cert.KernelIdeal.Step

open Cert.KernelIdeal Cert.KernelIdeal.Gen

variable {F : FTy → Type} [FloatOps F]

/-- The offsets of every access of the body: zero on both axes. -/
theorem hz : (![0, 0] : Fin 2 → Nat) = fun _ => 0 := funext fun a => by fin_cases a <;> rfl

/-- Contraction block 0: the accumulator ends at (cleared accumulator) + x·wᵀ of the point's blocks. The body stores
    the zero block, reads it back, and stores the sum over it; the second store covers the first. -/
theorem acc_first (c : Dev nD) (i : grid0.Coords) (a3 : Memref sig .tc .vmem S1024x1024 .bf16) (h3 : a3.IsWhole) (a4 : Memref sig .tc .vmem S1024x1024 .bf16) (h4 : a4.IsWhole) (a5 : Memref sig .tc .vmem S1024x1 .f32) (h5 : a5.IsWhole) (a6 : Memref sig .tc .vmem S1x1024 .f32) (h6 : a6.IsWhole) (a7 : Memref sig .tc .vmem S1x1024 .f32) (h7 : a7.IsWhole) (a8 : Memref sig .tc .vmem S1024x1024 .f32) (h8 : a8.IsWhole) (a9 : Memref sig .tc .vmem S1024x1024 .f32) (h9 : a9.IsWhole) (hc0 : cond0_0 i) (hc1 : ¬cond0_1 i) (x0 : Vec F S1024x1024 .bf16) (x1 : Vec F S1024x1024 .bf16) (x2 : Vec F S1024x1 .f32) (x3 : Vec F S1x1024 .f32) (x4 : Vec F S1x1024 .f32) :
    sout0_A_0 c i a3 h3 a4 h4 a5 h5 a6 h6 a7 h7 a8 h8 a9 h9 hc0 hc1 x0 x1 x2 x3 x4 = k0_pay2 (k0_pay1 (F := F)) x0 x1 := by
  unfold sout0_A_0
  rw [View.read_writes_eq_canon _ _ _ (scover0_A_0 c i a3 h3 a4 h4 a5 h5 a6 h6 a7 h7 a8 h8 a9 h9 hc0 hc1 x0 x1 x2 x3 x4)]
  unfold kernelRun0_A
  dsimp only
  sl_unfold_words
  rw [View.canon_cons_unit_zero (S := S1024x1024) hz, View.readCov_unit_zero (S := S1024x1024) _ hz]
  simp only [View.readAt_eq_ld, h3.read_unread, h4.read_unread, View.ld_unit_zero (S := S1024x1024) hz]

/-- Contraction blocks 1 and 2: the accumulator ends at (what the point before left) + x·wᵀ of the point's blocks. -/
theorem acc_next (c : Dev nD) (i : grid0.Coords) (a3 : Memref sig .tc .vmem S1024x1024 .bf16) (h3 : a3.IsWhole) (a4 : Memref sig .tc .vmem S1024x1024 .bf16) (h4 : a4.IsWhole) (a5 : Memref sig .tc .vmem S1024x1 .f32) (h5 : a5.IsWhole) (a6 : Memref sig .tc .vmem S1x1024 .f32) (h6 : a6.IsWhole) (a7 : Memref sig .tc .vmem S1x1024 .f32) (h7 : a7.IsWhole) (a8 : Memref sig .tc .vmem S1024x1024 .f32) (h8 : a8.IsWhole) (a9 : Memref sig .tc .vmem S1024x1024 .f32) (h9 : a9.IsWhole) (hc0 : ¬cond0_0 i) (hc1 : ¬cond0_1 i) (x0 : Vec F S1024x1024 .bf16) (x1 : Vec F S1024x1024 .bf16) (x2 : Vec F S1024x1 .f32) (x3 : Vec F S1x1024 .f32) (x4 : Vec F S1x1024 .f32) (acc : Vec F S1024x1024 .f32) :
    sout0_B_0 c i a3 h3 a4 h4 a5 h5 a6 h6 a7 h7 a8 h8 a9 h9 hc0 hc1 x0 x1 x2 x3 x4 acc = k0_pay2 acc x0 x1 := by
  unfold sout0_B_0
  rw [View.read_writes_eq_canon _ _ _ (scover0_B_0 c i a3 h3 a4 h4 a5 h5 a6 h6 a7 h7 a8 h8 a9 h9 hc0 hc1 x0 x1 x2 x3 x4 acc)]
  unfold kernelRun0_B
  dsimp only
  rw [View.canon_unit_zero hz]
  simp only [View.readAt_eq_ld, h9.read_unread, h3.read_unread, h4.read_unread, View.ld_unit_zero (S := S1024x1024) hz]

/-- Contraction block 3: the accumulator is stepped the same way … -/
theorem acc_last (c : Dev nD) (i : grid0.Coords) (a3 : Memref sig .tc .vmem S1024x1024 .bf16) (h3 : a3.IsWhole) (a4 : Memref sig .tc .vmem S1024x1024 .bf16) (h4 : a4.IsWhole) (a5 : Memref sig .tc .vmem S1024x1 .f32) (h5 : a5.IsWhole) (a6 : Memref sig .tc .vmem S1x1024 .f32) (h6 : a6.IsWhole) (a7 : Memref sig .tc .vmem S1x1024 .f32) (h7 : a7.IsWhole) (a8 : Memref sig .tc .vmem S1024x1024 .f32) (h8 : a8.IsWhole) (a9 : Memref sig .tc .vmem S1024x1024 .f32) (h9 : a9.IsWhole) (hc0 : ¬cond0_0 i) (hc1 : cond0_1 i) (x0 : Vec F S1024x1024 .bf16) (x1 : Vec F S1024x1024 .bf16) (x2 : Vec F S1024x1 .f32) (x3 : Vec F S1x1024 .f32) (x4 : Vec F S1x1024 .f32) (acc : Vec F S1024x1024 .f32) :
    sout0_C_0 c i a3 h3 a4 h4 a5 h5 a6 h6 a7 h7 a8 h8 a9 h9 hc0 hc1 x0 x1 x2 x3 x4 acc = k0_pay2 acc x0 x1 := by
  unfold sout0_C_0
  rw [View.read_writes_eq_canon _ _ _ (scover0_C_0 c i a3 h3 a4 h4 a5 h5 a6 h6 a7 h7 a8 h8 a9 h9 hc0 hc1 x0 x1 x2 x3 x4 acc)]
  unfold kernelRun0_C
  dsimp only
  sl_unfold_words
  rw [View.canon_unit_zero hz]
  simp only [View.readAt_eq_ld, h9.read_unread, h3.read_unread, h4.read_unread, View.ld_unit_zero (S := S1024x1024) hz]

/-- … and the output block is the epilogue of the stepped accumulator: it times the row scales (a column, spread over
    the columns) times the column scales (a row, spread over the rows) plus the bias row. The epilogue's load of the
    accumulator reads what the step just stored. -/
theorem out_last (c : Dev nD) (i : grid0.Coords) (a3 : Memref sig .tc .vmem S1024x1024 .bf16) (h3 : a3.IsWhole) (a4 : Memref sig .tc .vmem S1024x1024 .bf16) (h4 : a4.IsWhole) (a5 : Memref sig .tc .vmem S1024x1 .f32) (h5 : a5.IsWhole) (a6 : Memref sig .tc .vmem S1x1024 .f32) (h6 : a6.IsWhole) (a7 : Memref sig .tc .vmem S1x1024 .f32) (h7 : a7.IsWhole) (a8 : Memref sig .tc .vmem S1024x1024 .f32) (h8 : a8.IsWhole) (a9 : Memref sig .tc .vmem S1024x1024 .f32) (h9 : a9.IsWhole) (hc0 : ¬cond0_0 i) (hc1 : cond0_1 i) (x0 : Vec F S1024x1024 .bf16) (x1 : Vec F S1024x1024 .bf16) (x2 : Vec F S1024x1 .f32) (x3 : Vec F S1x1024 .f32) (x4 : Vec F S1x1024 .f32) (acc : Vec F S1024x1024 .f32) :
    out0_C_5 c i a3 h3 a4 h4 a5 h5 a6 h6 a7 h7 a8 h8 a9 h9 hc0 hc1 x0 x1 x2 x3 x4 acc = k0_pay3 (k0_pay2 acc x0 x1) x2 x3 x4 := by
  unfold out0_C_5
  rw [View.read_writes_eq_canon _ _ _ (cover0_C_5 c i a3 h3 a4 h4 a5 h5 a6 h6 a7 h7 a8 h8 a9 h9 hc0 hc1 x0 x1 x2 x3 x4 acc)]
  unfold kernelRun0_C
  dsimp only
  sl_unfold_words
  rw [View.canon_unit_zero hz, View.readCov_unit_zero (S := S1024x1024) _ hz]
  simp only [View.readAt_eq_ld, h9.read_unread, h3.read_unread, h4.read_unread, h5.read_unread, h6.read_unread,
    h7.read_unread, View.ld_unit_zero (S := S1024x1024) hz, View.ld_unit_zero (S := S1024x1) hz,
    View.ld_unit_zero (S := S1x1024) hz]

end Cert.KernelIdeal.Step

end
-- ==== Proof.LibTransposedDot.lean ====
/-
  A matrix product with the right operand transposed, read at an entry, on the extended reals.

  For the dimension numbers of an `M×K` by `N×K` product (`DotDims.transposedRhs M K N`: contract the second axis of
  the left operand with the second axis of the right operand, no batch axis; the result is `M×N`) — the product
  `l · rᵀ` — the sum over the contraction index of the operands' products at output entry `(p, j)` is
  `∑ k, l (p, k) * r (j, k)`: the contraction index is its one coordinate `k`, the left operand is read at row `p`,
  column `k`, the right at row `j`, column `k`. From it: a vector-unit matrix product into the zero accumulator
  (`matmul_zero_apply`), one into any accumulator (`matmul_apply`) and the host's `dot_general`
  (`dotGeneral_apply`) at `(p, j)`. A printed program's own record of these dimension numbers is
  `DotDims.transposedRhs` of its literal sizes by `rfl` (the records differ only in the proof of well-formedness).
-/
import Idealize.ShloMosaic.Lib.ValueIdx
import Idealize.ShloMosaic.PureOps.Ideal.Laws

noncomputable section

open scoped BigOperators

namespace Cert.Lib.TransposedDot

open Idealize.ShloMosaic Idealize.ShloMosaic.ValueIdx

variable {M K N : ℕ} {φ₁ φ₂ : FTy}

/-- Left operand, axis 0: the output's row. -/
theorem lhs0 (i : (⟨2, ![M, N]⟩ : Shape).Idx) (q : (DotDims.transposedRhs M K N).contr.Idx) :
    ((DotDims.transposedRhs M K N).lhsIdx i q 0).val = (i 0).val := by
  unfold DotDims.lhsIdx
  rw [dif_neg (show ¬(0 : Fin (⟨2, ![M, K]⟩ : Shape).rank) ∈ (DotDims.transposedRhs M K N).lhsBatch by simp [DotDims.transposedRhs]),
    dif_pos (show (0 : Fin (⟨2, ![M, K]⟩ : Shape).rank) ∈ (DotDims.transposedRhs M K N).lhsNonContracting by simp [DotDims.transposedRhs])]
  rfl

/-- Right operand, axis 0: the output's column. -/
theorem rhs0 (i : (⟨2, ![M, N]⟩ : Shape).Idx) (q : (DotDims.transposedRhs M K N).contr.Idx) :
    ((DotDims.transposedRhs M K N).rhsIdx i q 0).val = (i 1).val := by
  unfold DotDims.rhsIdx
  rw [dif_neg (show ¬(0 : Fin (⟨2, ![N, K]⟩ : Shape).rank) ∈ (DotDims.transposedRhs M K N).rhsBatch by simp [DotDims.transposedRhs]),
    dif_pos (show (0 : Fin (⟨2, ![N, K]⟩ : Shape).rank) ∈ (DotDims.transposedRhs M K N).rhsNonContracting by simp [DotDims.transposedRhs])]
  rfl

/-- The left operand's index at output `(p, j)` and contraction coordinate `k` is `(p, k)`. -/
theorem lhsIdx_eq (p : Fin M) (j : Fin N) (k : Fin K) :
    (DotDims.transposedRhs M K N).lhsIdx (ix2 p j) ((contrEquiv1 (DotDims.transposedRhs M K N) K rfl rfl).symm k) = ix2 p k := by
  have hk := contrEquiv1_symm_val (DotDims.transposedRhs M K N) K rfl rfl k
  exact funext fun a => Fin.ext (by
    match a with
    | ⟨0, _⟩ => exact lhs0 _ _
    | ⟨1, _⟩ => exact ((DotDims.transposedRhs M K N).lhsIdx_val_of_single rfl _ _).trans hk)

/-- The right operand's index at output `(p, j)` and contraction coordinate `k` is `(j, k)`. -/
theorem rhsIdx_eq (p : Fin M) (j : Fin N) (k : Fin K) :
    (DotDims.transposedRhs M K N).rhsIdx (ix2 p j) ((contrEquiv1 (DotDims.transposedRhs M K N) K rfl rfl).symm k) = ix2 j k := by
  have hk := contrEquiv1_symm_val (DotDims.transposedRhs M K N) K rfl rfl k
  exact funext fun a => Fin.ext (by
    match a with
    | ⟨0, _⟩ => exact rhs0 _ _
    | ⟨1, _⟩ => exact ((DotDims.transposedRhs M K N).rhsIdx_val_of_single rfl _ _).trans hk)

/-- The contraction's sum at output `(p, j)` is the sum over the contracted coordinate. -/
theorem sum_eq (l : (⟨2, ![M, K]⟩ : Shape).Idx → EReal) (r : (⟨2, ![N, K]⟩ : Shape).Idx → EReal) (p : Fin M) (j : Fin N) :
    ∑ q : (DotDims.transposedRhs M K N).contr.Idx,
        l ((DotDims.transposedRhs M K N).lhsIdx (ix2 p j) q) * r ((DotDims.transposedRhs M K N).rhsIdx (ix2 p j) q)
      = ∑ k : Fin K, l (ix2 p k) * r (ix2 j k) := by
  rw [← Equiv.sum_comp (contrEquiv1 (DotDims.transposedRhs M K N) K rfl rfl).symm]
  refine Finset.sum_congr rfl fun k _ => ?_
  rw [lhsIdx_eq, rhsIdx_eq]

/-- A matrix product on the vector unit into the zero accumulator, at entry `(p, j)`. -/
theorem matmul_zero_apply (prec : Option ContractPrecision) (l : FVec Ideal ⟨2, ![M, K]⟩ φ₁) (r : FVec Ideal ⟨2, ![N, K]⟩ φ₂)
    (p : Fin M) (j : Fin N) :
    FloatOps.matmul (DotDims.transposedRhs M K N) prec l r (constant ⟨2, ![M, N]⟩ .f32 0x00000000#32) (ix2 p j)
      = ∑ k : Fin K, l (ix2 p k) * r (ix2 j k) := by
  rw [Ideal.matmul_constant_zero_apply]
  exact sum_eq l r p j

/-- A matrix product on the vector unit into any accumulator, at entry `(p, j)`: the accumulator there plus the sum. -/
theorem matmul_apply (prec : Option ContractPrecision) (l : FVec Ideal ⟨2, ![M, K]⟩ φ₁) (r : FVec Ideal ⟨2, ![N, K]⟩ φ₂)
    (acc : FVec Ideal ⟨2, ![M, N]⟩ .f32) (p : Fin M) (j : Fin N) :
    FloatOps.matmul (DotDims.transposedRhs M K N) prec l r acc (ix2 p j)
      = acc (ix2 p j) + ∑ k : Fin K, l (ix2 p k) * r (ix2 j k) := by
  rw [Ideal.matmul_apply]
  exact congrArg (acc (ix2 p j) + ·) (sum_eq l r p j)

/-- The host's `dot_general` at entry `(p, j)`, whatever its schedule. -/
theorem dotGeneral_apply (prec : Option ContractPrecision) (sched : HostSchedule) (l : FVec Ideal ⟨2, ![M, K]⟩ φ₁)
    (r : FVec Ideal ⟨2, ![N, K]⟩ φ₂) (p : Fin M) (j : Fin N) :
    FloatOps.dotGeneral (DotDims.transposedRhs M K N) prec sched l r (ix2 p j) = ∑ k : Fin K, l (ix2 p k) * r (ix2 j k) := by
  rw [Ideal.dotGeneral_apply]
  exact sum_eq l r p j

end Cert.Lib.TransposedDot

end
-- ==== Proof.PointArithmetic.lean ====
/-
  The body's arithmetic at one entry, on the extended reals.

  At entry (p, q) of a 1024 × 1024 block: the cleared accumulator is 0; one accumulation step is the accumulator plus
  the dot product of row p of the x-block with row q of the w-block (the product is x · wᵀ: both operands are
  contracted over their second axis); the epilogue is the accumulator times the row scale of row p times the column
  scale of column q plus the bias of column q — the row scales are a column vector spread over the columns, the
  column scales and the bias are row vectors spread over the rows.
-/
import proofs.«113916_j18107582120420_1_alg».proof.Proof.Gen.KernelIdeal.Skeleton
import proofs.«113916_j18107582120420_1_alg».proof.Proof.LibTransposedDot
import Idealize.ShloMosaic.Lib.Pipeline.Value
import Idealize.ShloMosaic.Lib.ValueIdx
import Idealize.ShloMosaic.PureOps.Ideal.Laws

noncomputable section

open scoped BigOperators
open Idealize.ShloMosaic Idealize.ShloMosaic.ValueIdx

namespace Cert.KernelIdeal.Arith

open Cert.KernelIdeal Cert.KernelIdeal.Gen

/-- A column vector spread over the columns, at (p, q): its entry of row p. -/
theorem spread_column {α : Type} (v : S1024x1.Idx → α) (h : S1024x1.Broadcasts S1024x1024) (p q : Fin 1024) :
    broadcastTo S1024x1024 v h (ix2 p q) = v (ix2 p 0) :=
  broadcastTo_apply v h (ix2 p q) (ix2 p 0) (fun a => match a with
    | ⟨0, _⟩ => by show p.val = if (1024 : Nat) = 1 then 0 else p.val; rw [if_neg (by decide)]
    | ⟨1, _⟩ => by show 0 = if (1 : Nat) = 1 then 0 else q.val; rw [if_pos rfl])

/-- A row vector spread over the rows, at (p, q): its entry of column q. -/
theorem spread_row {α : Type} (v : S1x1024.Idx → α) (h : S1x1024.Broadcasts S1024x1024) (p q : Fin 1024) :
    broadcastTo S1024x1024 v h (ix2 p q) = v (ix2 0 q) :=
  broadcastTo_apply v h (ix2 p q) (ix2 0 q) (fun a => match a with
    | ⟨0, _⟩ => by show 0 = if (1 : Nat) = 1 then 0 else p.val; rw [if_pos rfl]
    | ⟨1, _⟩ => by show q.val = if (1024 : Nat) = 1 then 0 else q.val; rw [if_neg (by decide)])

/-- The cleared accumulator is zero at every entry. -/
theorem cleared_apply (y : S1024x1024.Idx) : k0_pay1 (F := Ideal) y = 0 := by
  unfold k0_pay1
  simp only [shapeCast_self]
  exact Ideal.ofBits_zero_f32

/-- One accumulation step at (p, q): the accumulator there plus ∑ₖ x(p, k) · w(q, k). -/
theorem step_apply (acc : Vec Ideal S1024x1024 .f32) (x w : Vec Ideal S1024x1024 .bf16) (p q : Fin 1024) :
    k0_pay2 acc x w (ix2 p q) = acc (ix2 p q) + ∑ k : Fin 1024, x (ix2 p k) * w (ix2 q k) := by
  unfold k0_pay2
  simp only [shapeCast_self]
  exact congrArg (acc (ix2 p q) + ·) (Cert.Lib.TransposedDot.matmul_zero_apply (M := 1024) (K := 1024) (N := 1024) none x w p q)

/-- The epilogue at (p, q): accumulator · row scale of p · column scale of q + bias of q. -/
theorem epilogue_apply (acc : Vec Ideal S1024x1024 .f32) (a : Vec Ideal S1024x1 .f32) (b β : Vec Ideal S1x1024 .f32)
    (p q : Fin 1024) :
    k0_pay3 acc a b β (ix2 p q) = acc (ix2 p q) * a (ix2 p 0) * b (ix2 0 q) + β (ix2 0 q) := by
  unfold k0_pay3
  simp only [shapeCast_self]
  rw [addf_apply, mulf_apply, mulf_apply, spread_column, spread_row, spread_row]

end Cert.KernelIdeal.Arith

end
-- ==== Proof.LibBlockSum.lean ====
/-
  A sum over K * n consecutive indices as K blocks of n.
-/
import Mathlib.Algebra.BigOperators.Fin
import Mathlib.Logic.Equiv.Fin.Basic

namespace Cert.Lib.BlockSum

/-- Position `j` of block `s`, among `K` blocks of `n` consecutive indices. -/
abbrev at_ {K n : ℕ} (s : Fin K) (j : Fin n) : Fin (K * n) :=
  ⟨s.val * n + j.val, Nat.lt_of_lt_of_le (Nat.add_lt_add_left j.isLt _)
    (by rw [← Nat.succ_mul]; exact Nat.mul_le_mul_right _ s.isLt)⟩

/-- A sum over the `K * n` indices below `K * n` is the sum over the `K` blocks of `n` consecutive indices of each
    block's sum: `∑ᵢ H i = ∑ₛ ∑ⱼ H (s n + j)`, in any commutative monoid (no subtraction, no finiteness of values:
    on the extended reals too). -/
theorem sum_blocks {β : Type*} [AddCommMonoid β] (K n : ℕ) (H : Fin (K * n) → β) :
    ∑ i, H i = ∑ s : Fin K, ∑ j : Fin n, H (at_ s j) := by
  rw [← Equiv.sum_comp finProdFinEquiv H, Fintype.sum_prod_type]
  refine Finset.sum_congr rfl fun s _ => Finset.sum_congr rfl fun j _ => congrArg H (Fin.ext ?_)
  show j.val + n * s.val = s.val * n + j.val
  rw [Nat.mul_comm, Nat.add_comm]

end Cert.Lib.BlockSum
-- ==== Proof.ScaledProduct.lean ====
/-
  The scaled product: what both programs compute, and the law that joins their two arrangements of it.

  From a quantized activation matrix X [8192, 4096], a quantized weight matrix W [16384, 4096], a column of row scales
  a [8192, 1], a column of column scales b [16384, 1] and a bias β [16384], the result at (r, n) is

      (∑ₖ X(r, k) · W(n, k)) · a(r) · b(n) + β(n)          (k over all 4096 columns, the products grouped as written).

  One program forms the sum over k at once; the other forms it as four partial sums over consecutive blocks of 1024,
  added in order onto zero. On the extended reals addition is commutative and associative and 0 is its unit — also at
  the infinities — so the two are equal for every X and W, finite or not: no hypothesis on the data is used.
-/
import proofs.«113916_j18107582120420_1_alg».proof.Proof.LibBlockSum
import Idealize.ShloMosaic.Lib.ValueIdx
import Idealize.ShloMosaic.PureOps.Ideal

noncomputable section

open scoped BigOperators
open Idealize.ShloMosaic Idealize.ShloMosaic.ValueIdx

namespace Cert.ScaledProduct

/-- The result at (r, n): the dot product of row r of X with row n of W, times the scale of row r, times the scale
    of column n, plus the bias of column n. -/
def out (X : (⟨2, ![8192, 4096]⟩ : Shape).Idx → EReal) (W : (⟨2, ![16384, 4096]⟩ : Shape).Idx → EReal)
    (a : (⟨2, ![8192, 1]⟩ : Shape).Idx → EReal) (b : (⟨2, ![16384, 1]⟩ : Shape).Idx → EReal)
    (β : (⟨1, ![16384]⟩ : Shape).Idx → EReal) : (⟨2, ![8192, 16384]⟩ : Shape).Idx → EReal :=
  fun i => (∑ k : Fin 4096, X (ix2 (i 0) k) * W (ix2 (i 1) k)) * a (ix2 (i 0) 0) * b (ix2 (i 1) 0) + β (ix1 (i 1))

/-- Column `j` of contraction block `s`, among the 4096 columns: `1024 s + j`. -/
abbrev col (s : Fin 4) (j : Fin 1024) : Fin 4096 := Cert.Lib.BlockSum.at_ (K := 4) (n := 1024) s j

theorem col_val (s : Fin 4) (j : Fin 1024) : (col s j).val = s.val * 1024 + j.val := rfl

/-- Four partial sums over the four blocks of 1024 columns, added in order onto zero, are the sum over all 4096
    columns: `((0 + m₀ + m₁ + m₂) + m₃ = ∑ₖ H k` when `mₛ = ∑ⱼ H (1024 s + j)`. -/
theorem chain_eq (H : Fin 4096 → EReal) (m : ℕ → EReal)
    (hm : ∀ s : Fin 4, m s.val = ∑ j : Fin 1024, H (col s j)) :
    (0 + ∑ s ∈ Finset.range 3, m s) + m 3 = ∑ k : Fin 4096, H k := by
  rw [zero_add, ← Finset.sum_range_succ m 3, Finset.sum_range]
  rw [Finset.sum_congr rfl fun s _ => hm s]
  exact (Cert.Lib.BlockSum.sum_blocks (β := EReal) 4 1024 H).symm

end Cert.ScaledProduct

end
-- ==== Proof.KernelValue.lean ====
/-
  The idealized kernel's result array, as one function of the five arrays its region finds.

  Write a grid point as t = 64·I + 4·J + s: row block I < 8, column block J < 16, contraction block s < 4. At that
  point the x-window holds rows 1024·I … of X and columns 1024·s … of it, the w-window rows 1024·J … of W and the same
  columns, the row-scale window rows 1024·I … of the scale column, the column-scale and bias windows columns 1024·J …
  of their rows, and the output window is block (I, J) of the result. The accumulator after point t is zero plus the
  partial products of the points 64·I + 4·J … t, added in order (the fold of the per-point steps); the one point of
  each (I, J) that writes its block back is s = 3, and what it writes at (p, q) is that accumulator — four partial
  sums over the four column blocks of 1024 — times the row scale times the column scale plus the bias. Four ordered
  partial sums onto zero are the whole sum over the 4096 columns, and the 128 blocks written back tile the result.
-/
import proofs.«113916_j18107582120420_1_alg».proof.Proof.Gen.KernelIdeal.Value
import proofs.«113916_j18107582120420_1_alg».proof.Proof.StepContents
import proofs.«113916_j18107582120420_1_alg».proof.Proof.PointArithmetic
import proofs.«113916_j18107582120420_1_alg».proof.Proof.ScaledProduct
import Idealize.ShloMosaic.Lib.Pipeline.Value

noncomputable section

open scoped BigOperators
open Idealize.ShloMosaic Idealize.ShloMosaic.TcCoe Idealize.SL.Sem Idealize.ShloMosaic.ValueIdx
open Idealize.ShloMosaic.Pipeline (Dat)

namespace Cert.KernelIdeal.RunValue

open Cert.KernelIdeal Cert.KernelIdeal.Gen

variable (m : (ℓ : Loc nD τ sig) → Buf (Elt Ideal) ℓ) (ρ : Dev nD → PrngReg)

/-! ## The five arrays the region finds, and the two matrix blocks of a point, as arrays of extended reals -/

/-- The quantized activations X [8192, 4096] and weights W [16384, 4096], the row-scale column [8192, 1], the
    column-scale row [1, 16384] and the bias row [1, 16384], as the host operations before the region left them. -/
abbrev X (c : Dev nD) : S8192x4096.Idx → EReal := V m c main_v50
abbrev W (c : Dev nD) : S16384x4096.Idx → EReal := V m c main_v51
abbrev rowScale (c : Dev nD) : S8192x1.Idx → EReal := V m c main_v23
abbrev colScale (c : Dev nD) : S1x16384.Idx → EReal := V m c main_v52
abbrev biasRow (c : Dev nD) : S1x16384.Idx → EReal := V m c main_v53

/-- The x-window's and the w-window's block at point `t`. -/
abbrev xblk (c : Dev nD) (t : Fin cfg0.N) : S1024x1024.Idx → EReal := iblk m c 0 t
abbrev wblk (c : Dev nD) (t : Fin cfg0.N) : S1024x1024.Idx → EReal := iblk m c 1 t
abbrev ablk (c : Dev nD) (t : Fin cfg0.N) : S1024x1.Idx → EReal := iblk m c 2 t
abbrev bblk (c : Dev nD) (t : Fin cfg0.N) : S1x1024.Idx → EReal := iblk m c 3 t
abbrev βblk (c : Dev nD) (t : Fin cfg0.N) : S1x1024.Idx → EReal := iblk m c 4 t

/-! ## Where each window sits at a point -/

/-- The block index of every window at point t = 64·I + 4·J + s, decided over the 512 points: x at (I, s), w at
    (J, s), the row scales at (I, 0), the column scales and the bias at (0, J), the output at (I, J). -/
theorem idx_facts : ∀ t : Fin cfg0.N,
    win0_0.index t (0 : Fin 2) = t.val / 64 ∧ win0_0.index t (1 : Fin 2) = t.val % 4
    ∧ win0_1.index t (0 : Fin 2) = t.val / 4 % 16 ∧ win0_1.index t (1 : Fin 2) = t.val % 4
    ∧ win0_2.index t (0 : Fin 2) = t.val / 64 ∧ win0_2.index t (1 : Fin 2) = 0
    ∧ win0_3.index t (0 : Fin 2) = 0 ∧ win0_3.index t (1 : Fin 2) = t.val / 4 % 16
    ∧ win0_4.index t (0 : Fin 2) = 0 ∧ win0_4.index t (1 : Fin 2) = t.val / 4 % 16
    ∧ win0_5.index t (0 : Fin 2) = t.val / 64 ∧ win0_5.index t (1 : Fin 2) = t.val / 4 % 16 :=
  (by decide +kernel : ∀ t : Fin grid0.N, _)

/-- Row `p` of row block `I`, column `q` of column block `J`, column `k` of contraction block `s`. -/
abbrev row (I : ℕ) (hI : I < 8) (p : Fin 1024) : Fin 8192 := ⟨I * 1024 + p.val, by have := p.isLt; omega⟩
abbrev colN (J : ℕ) (hJ : J < 16) (q : Fin 1024) : Fin 16384 := ⟨J * 1024 + q.val, by have := q.isLt; omega⟩
abbrev colK (s : ℕ) (hs : s < 4) (k : Fin 1024) : Fin 4096 := ⟨s * 1024 + k.val, by have := k.isLt; omega⟩

/-- The x-window's block at a point, at (p, k): X at (row p of block I, column k of block s). -/
theorem x_block (c : Dev nD) (t : Fin cfg0.N) (I s : ℕ) (hI : I < 8) (hs : s < 4) (eI : t.val / 64 = I) (es : t.val % 4 = s)
    (p k : Fin 1024) :
    xblk m c t (ix2 p k) = X m c (ix2 (row I hI p) (colK s hs k)) := by
  obtain ⟨e0, e1, -⟩ := idx_facts t
  subst eI es
  show iblk m c 0 t (ix2 p k) = _
  unfold iblk
  rw [View.read_apply]
  show V m c main_v50 _ = V m c main_v50 _
  refine congrArg _ (funext fun a => Fin.ext ?_)
  match a with
  | ⟨0, _⟩ => show win0_0.index t (0 : Fin 2) * 1024 + 1 * p.val = t.val / 64 * 1024 + p.val; rw [e0]; omega
  | ⟨1, _⟩ => show win0_0.index t (1 : Fin 2) * 1024 + 1 * k.val = t.val % 4 * 1024 + k.val; rw [e1]; omega

/-- The w-window's block at a point, at (q, k): W at (row q of block J, column k of block s). -/
theorem w_block (c : Dev nD) (t : Fin cfg0.N) (J s : ℕ) (hJ : J < 16) (hs : s < 4) (eJ : t.val / 4 % 16 = J) (es : t.val % 4 = s)
    (q k : Fin 1024) :
    wblk m c t (ix2 q k) = W m c (ix2 (colN J hJ q) (colK s hs k)) := by
  obtain ⟨-, -, e0, e1, -⟩ := idx_facts t
  subst eJ es
  show iblk m c 1 t (ix2 q k) = _
  unfold iblk
  rw [View.read_apply]
  show V m c main_v51 _ = V m c main_v51 _
  refine congrArg _ (funext fun a => Fin.ext ?_)
  match a with
  | ⟨0, _⟩ => show win0_1.index t (0 : Fin 2) * 1024 + 1 * q.val = t.val / 4 % 16 * 1024 + q.val; rw [e0]; omega
  | ⟨1, _⟩ => show win0_1.index t (1 : Fin 2) * 1024 + 1 * k.val = t.val % 4 * 1024 + k.val; rw [e1]; omega

/-- The row-scale window's block at a point, at (p, 0): the scale column at row p of block I. -/
theorem a_block (c : Dev nD) (t : Fin cfg0.N) (I : ℕ) (hI : I < 8) (eI : t.val / 64 = I) (p : Fin 1024) :
    ablk m c t (ix2 p 0) = rowScale m c (ix2 (row I hI p) 0) := by
  obtain ⟨-, -, -, -, e0, e1, -⟩ := idx_facts t
  subst eI
  show iblk m c 2 t (ix2 p 0) = _
  unfold iblk
  rw [View.read_apply]
  show V m c main_v23 _ = V m c main_v23 _
  refine congrArg _ (funext fun a => Fin.ext ?_)
  match a with
  | ⟨0, _⟩ => show win0_2.index t (0 : Fin 2) * 1024 + 1 * p.val = t.val / 64 * 1024 + p.val; rw [e0]; omega
  | ⟨1, _⟩ => show win0_2.index t (1 : Fin 2) * 1 + 1 * 0 = 0; rw [e1]

/-- The column-scale window's block at a point, at (0, q): the scale row at column q of block J. -/
theorem b_block (c : Dev nD) (t : Fin cfg0.N) (J : ℕ) (hJ : J < 16) (eJ : t.val / 4 % 16 = J) (q : Fin 1024) :
    bblk m c t (ix2 0 q) = colScale m c (ix2 0 (colN J hJ q)) := by
  obtain ⟨-, -, -, -, -, -, e0, e1, -⟩ := idx_facts t
  subst eJ
  show iblk m c 3 t (ix2 0 q) = _
  unfold iblk
  rw [View.read_apply]
  show V m c main_v52 _ = V m c main_v52 _
  refine congrArg _ (funext fun a => Fin.ext ?_)
  match a with
  | ⟨0, _⟩ => show win0_3.index t (0 : Fin 2) * 1 + 1 * 0 = 0; rw [e0]
  | ⟨1, _⟩ => show win0_3.index t (1 : Fin 2) * 1024 + 1 * q.val = t.val / 4 % 16 * 1024 + q.val; rw [e1]; omega

/-- The bias window's block at a point, at (0, q): the bias row at column q of block J. -/
theorem bias_block (c : Dev nD) (t : Fin cfg0.N) (J : ℕ) (hJ : J < 16) (eJ : t.val / 4 % 16 = J) (q : Fin 1024) :
    βblk m c t (ix2 0 q) = biasRow m c (ix2 0 (colN J hJ q)) := by
  obtain ⟨-, -, -, -, -, -, -, -, e0, e1, -⟩ := idx_facts t
  subst eJ
  show iblk m c 4 t (ix2 0 q) = _
  unfold iblk
  rw [View.read_apply]
  show V m c main_v53 _ = V m c main_v53 _
  refine congrArg _ (funext fun a => Fin.ext ?_)
  match a with
  | ⟨0, _⟩ => show win0_4.index t (0 : Fin 2) * 1 + 1 * 0 = 0; rw [e0]
  | ⟨1, _⟩ => show win0_4.index t (1 : Fin 2) * 1024 + 1 * q.val = t.val / 4 % 16 * 1024 + q.val; rw [e1]; omega

/-! ## The accumulator: zero plus the partial products of the run's points, in order -/

/-- Point `n`'s partial product at (p, q): ∑ₖ xₙ(p, k) · wₙ(q, k) over the point's two blocks (0 past the grid, where
    it is never read). -/
def part (c : Dev nD) (n : ℕ) (y : S1024x1024.Idx) : EReal :=
  if h : n < cfg0.N then
    ∑ k : Fin 1024, xblk m c ⟨n, h⟩ (ix2 (y 0) k) * wblk m c ⟨n, h⟩ (ix2 (y 1) k)
  else 0

theorem part_of_lt (c : Dev nD) (n : ℕ) (h : n < cfg0.N) (p q : Fin 1024) :
    part m c n (ix2 p q) = ∑ k : Fin 1024, xblk m c ⟨n, h⟩ (ix2 p k) * wblk m c ⟨n, h⟩ (ix2 q k) := by
  unfold part
  rw [dif_pos h]

/-- Point n = 64·I + 4·J + s's partial product at (p, q), over the whole matrices: the dot product of row p of row
    block I of X with row q of row block J of W, over the 1024 columns of contraction block s. -/
theorem part_eq (c : Dev nD) (n : ℕ) (hn : n < cfg0.N) (I J s : ℕ) (hI : I < 8) (hJ : J < 16) (hs : s < 4)
    (eI : n / 64 = I) (eJ : n / 4 % 16 = J) (es : n % 4 = s) (p q : Fin 1024) :
    part m c n (ix2 p q) = ∑ k : Fin 1024, X m c (ix2 (row I hI p) (colK s hs k))
      * W m c (ix2 (colN J hJ q) (colK s hs k)) := by
  rw [part_of_lt m c n hn]
  refine Finset.sum_congr rfl fun k _ => ?_
  rw [x_block m c ⟨n, hn⟩ I s hI hs eI es p k, w_block m c ⟨n, hn⟩ J s hJ hs eJ es q k]

/-- The accumulator after a point `u` that is not the last of its run: zero plus the partial products of the run's
    points up to `u` — the fold of the steps from the reset at the run's first point `4·(u / 4)`. -/
theorem acc_eq (c : Dev nD) (u : Fin cfg0.N) (hu : u.val % 4 ≤ 2) (y : S1024x1024.Idx) :
    (outsAt0 m c u.val u.isLt).2 y = 0 + ∑ s ∈ Finset.range (u.val % 4 + 1), part m c (4 * (u.val / 4) + s) y := by
  rw [Value.soutsAt0_0_eq m c u]
  refine Pipeline.accAt_add_apply _ _ (fun _ => (0 : EReal)) (part m c) (4 * (u.val / 4)) 2 ?_ ?_ (u.val % 4) hu _ y
  · intro h y
    obtain ⟨p, q, rfl⟩ : ∃ p q, y = ix2 p q := ⟨y 0, y 1, eq_ix2 y⟩
    have h0 : (4 * (u.val / 4)) % 4 = 0 := by omega
    have h1 : ¬(4 * (u.val / 4)) % 4 = 3 := by omega
    show Value.scAt0_0 m c (4 * (u.val / 4)) h _ (ix2 p q) = 0 + part m c _ (ix2 p q)
    unfold Value.scAt0_0
    rw [dif_pos h0, dif_neg h1, Step.acc_first, part_of_lt m c _ h]
    refine (Arith.step_apply _ _ _ p q).trans ?_
    rw [Arith.cleared_apply]
  · intro n h acc y hb he
    obtain ⟨p, q, rfl⟩ : ∃ p q, y = ix2 p q := ⟨y 0, y 1, eq_ix2 y⟩
    have h0 : ¬n % 4 = 0 := by omega
    have h1 : ¬n % 4 = 3 := by omega
    show Value.scAt0_0 m c n h acc (ix2 p q) = acc (ix2 p q) + part m c n (ix2 p q)
    unfold Value.scAt0_0
    rw [dif_neg h0, dif_neg h1, Step.acc_next, part_of_lt m c n h]
    exact Arith.step_apply _ _ _ p q

/-! ## The result array -/

/-- The result as a function of the five arrays: at (r, n),
    (∑ₖ X(r, k) · W(n, k)) · rowScale(r) · colScale(n) + bias(n), k over all 4096 columns. -/
def result (c : Dev nD) : S8192x16384.Idx → EReal := fun i =>
  (∑ k : Fin 4096, X m c (ix2 (i 0) k) * W m c (ix2 (i 1) k)) * rowScale m c (ix2 (i 0) 0) * colScale m c (ix2 0 (i 1))
    + biasRow m c (ix2 0 (i 1))

/-- What the last point t = 64·I + 4·J + 3 of a run leaves in the output block at (p, q) is the result at
    (1024·I + p, 1024·J + q): the accumulator the three points before left is zero plus their three partial sums, the
    point adds the fourth, and four ordered partial sums over the four column blocks are the sum over all columns. -/
theorem entry_eq (c : Dev nD) (t : Fin cfg0.N) (h3 : t.val % 4 = 3) (hu : t.val - 1 < cfg0.N) (p q : Fin 1024)
    (i : S8192x16384.Idx) (hi0 : (i 0).val = t.val / 64 * 1024 + p.val) (hi1 : (i 1).val = t.val / 4 % 16 * 1024 + q.val) :
    k0_pay3 (k0_pay2 ((outsAt0 m c (t.val - 1) hu).2) (iblk m c 0 t) (iblk m c 1 t)) (iblk m c 2 t) (iblk m c 3 t)
      (iblk m c 4 t) (ix2 p q) = result m c i := by
  have hN' : cfg0.N = 512 := N_0
  have hN : t.val < 512 := lt_of_lt_of_eq t.isLt hN'
  have hI : t.val / 64 < 8 := by omega
  have hJ : t.val / 4 % 16 < 16 := by omega
  refine (Arith.epilogue_apply _ _ _ _ p q).trans ?_
  rw [Arith.step_apply]
  show ((outsAt0 m c (t.val - 1) hu).2 (ix2 p q) + ∑ k : Fin 1024, xblk m c t (ix2 p k) * wblk m c t (ix2 q k))
      * ablk m c t (ix2 p 0) * bblk m c t (ix2 0 q) + βblk m c t (ix2 0 q) = _
  rw [a_block m c t _ hI rfl p, b_block m c t _ hJ rfl q, bias_block m c t _ hJ rfl q]
  have hlast : ∑ k : Fin 1024, xblk m c t (ix2 p k) * wblk m c t (ix2 q k) = part m c (t.val - 3 + 3) (ix2 p q) := by
    rw [part_of_lt m c (t.val - 3 + 3) (by omega) p q]
    have e3 : (⟨t.val - 3 + 3, by omega⟩ : Fin cfg0.N) = t := Fin.ext (by show t.val - 3 + 3 = t.val; omega)
    rw [e3]
  have hacc := acc_eq m c ⟨t.val - 1, hu⟩ (by show (t.val - 1) % 4 ≤ 2; omega) (ix2 p q)
  dsimp only at hacc
  rw [hlast, hacc, show (t.val - 1) % 4 + 1 = 3 by omega, show 4 * ((t.val - 1) / 4) = t.val - 3 by omega]
  have hsum := Cert.ScaledProduct.chain_eq
    (fun k => X m c (ix2 (row (t.val / 64) hI p) k) * W m c (ix2 (colN (t.val / 4 % 16) hJ q) k))
    (fun s => part m c (t.val - 3 + s) (ix2 p q))
    (fun s => by
      have hs := s.isLt
      show part m c (t.val - 3 + s.val) (ix2 p q) = _
      rw [part_eq m c (t.val - 3 + s.val) (by omega) (t.val / 64) (t.val / 4 % 16) s.val hI hJ hs (by omega) (by omega) (by omega) p q])
  have ei0 : i 0 = row (t.val / 64) hI p := Fin.ext hi0
  have ei1 : i 1 = colN (t.val / 4 % 16) hJ q := Fin.ext hi1
  unfold result
  rw [ei0, ei1]
  exact congrArg (fun z => z * rowScale m c (ix2 (row (t.val / 64) hI p) 0) * colScale m c (ix2 0 (colN (t.val / 4 % 16) hJ q))
    + biasRow m c (ix2 0 (colN (t.val / 4 % 16) hJ q))) hsum

/-- What a flushing point writes back is its block of the result. -/
theorem flushed_eq (c : Dev nD) (t : Fin cfg0.N) (hf : (cfg0.win 5).flush t = true) :
    (dats m 0 c).flushed 5 t = ((cfg0.win 5).blk t).view.read (Elt Ideal) (result m c) := by
  have h3 : t.val % 4 = 3 := (flush0_5 t).mp hf
  have h0 : ¬t.val % 4 = 0 := by omega
  have hu : t.val - 1 < cfg0.N := Nat.lt_of_le_of_lt (Nat.sub_le _ _) t.isLt
  rw [Value.flushed5_C m c t h0 h3, Step.out_last]
  obtain ⟨-, -, -, -, -, -, -, -, -, -, e50, e51⟩ := idx_facts t
  funext y
  show k0_pay3 (k0_pay2 ((outsAt0 m c (t.val - 1) hu).2) (iblk m c 0 t) (iblk m c 1 t)) (iblk m c 2 t) (iblk m c 3 t)
      (iblk m c 4 t) (y : S1024x1024.Idx) = result m c (((cfg0.win 5).blk t).view.emb y)
  have hy : (y : S1024x1024.Idx) = ix2 (y 0) (y 1) := eq_ix2 (n0 := 1024) (n1 := 1024) y
  rw [hy]
  exact entry_eq m c t h3 hu (y 0) (y 1) _
    (by show win0_5.index t (0 : Fin 2) * 1024 + 1 * (y 0).val = t.val / 64 * 1024 + (y 0).val; rw [e50]; omega)
    (by show win0_5.index t (1 : Fin 2) * 1024 + 1 * (y 1).val = t.val / 4 % 16 * 1024 + (y 1).val; rw [e51]; omega)

/-! ## The blocks written back tile the result -/

/-- An entry of the result is in point t's output block iff each coordinate is in the block's range on its axis. -/
theorem mem_blk (t : Fin cfg0.N) (i : S8192x16384.Idx) :
    i ∈ ((cfg0.win 5).blk t).view.set ↔ ∀ a : Fin 2, win0_5.index t a * S1024x1024.size a ≤ (i a).val
      ∧ (i a).val < win0_5.index t a * S1024x1024.size a + S1024x1024.size a := by
  show i ∈ ((View.whole main_v54).slice (win0_5.rect t)).set ↔ _
  rw [View.set_slice_whole, Rect.mem_set_unit]
  exact Iff.rfl

/-- Every entry (r, n) lies in the block of a point that writes back: the last point of the run of row block r / 1024
    and column block n / 1024. -/
theorem cover (i : S8192x16384.Idx) :
    ∃ t : Fin cfg0.N, (cfg0.win 5).flush t = true ∧ i ∈ ((cfg0.win 5).blk t).view.set := by
  have hi0 : (i 0).val < 8192 := (i 0).isLt
  have hi1 : (i 1).val < 16384 := (i 1).isLt
  have hN' : cfg0.N = 512 := N_0
  obtain ⟨t, ht⟩ : ∃ t : Fin cfg0.N, t.val = 64 * ((i 0).val / 1024) + 4 * ((i 1).val / 1024) + 3 :=
    ⟨⟨64 * ((i 0).val / 1024) + 4 * ((i 1).val / 1024) + 3, by rw [hN']; omega⟩, rfl⟩
  obtain ⟨-, -, -, -, -, -, -, -, -, -, e50, e51⟩ := idx_facts t
  refine ⟨t, (flush0_5 t).mpr (by omega), ?_⟩
  rw [mem_blk]
  intro a
  match a with
  | ⟨0, _⟩ =>
    show win0_5.index t (0 : Fin 2) * 1024 ≤ (i 0).val ∧ (i 0).val < win0_5.index t (0 : Fin 2) * 1024 + 1024
    rw [e50]; omega
  | ⟨1, _⟩ =>
    show win0_5.index t (1 : Fin 2) * 1024 ≤ (i 1).val ∧ (i 1).val < win0_5.index t (1 : Fin 2) * 1024 + 1024
    rw [e51]; omega

/-- So after the run the result array holds `result`. -/
theorem final (c : Dev nD) : (dats m 0 c).arrAt 5 cfg0.N = result m c :=
  (dats m 0 c).arrAt_eq_of_cover 5 (result m c) (flushed_eq m c) cover

/-- The idealized kernel's run: it terminates with the result array at `result` and the arguments unchanged. -/
theorem run : θ_run defs (onTc (τ := τ) (main (F := Ideal))) ⟨m, fun _ => 0, ρ⟩ fun r => ∀ c : Dev nD,
      r.2.mem ((c : Thread nD τ).loc main_v54) = result m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2) :=
  (θ_run defs _ _).mono (fun r h c => ⟨(h c).1.trans (final m c), (h c).2⟩) (Value.run_blocks m ρ)

end Cert.KernelIdeal.RunValue

end
-- ==== Proof.ReferenceValue.lean ====
/-
  The reference's result, index by index, is the scaled product.

  Its last nine operations form, at (r, n): the `dot_general` contracting the second axes of the two quantized
  matrices — ∑ₖ X(r, k) · W(n, k) over all 4096 columns —, times the row-scale column spread over the columns, times
  the column-scale column transposed to a row and spread over the rows, plus the bias spread over the rows. The four
  operands X, W and the two scale columns are left as the reference's own terms of the arguments: nothing below
  depends on what they are.
-/
import proofs.«113916_j18107582120420_1_alg».proof.Proof.Gen.ReferenceIdeal.Read
import proofs.«113916_j18107582120420_1_alg».proof.Proof.ScaledProduct

noncomputable section

open scoped BigOperators
open Idealize.ShloMosaic Idealize.ShloMosaic.ValueIdx

namespace Cert.ReferenceIdeal.RefValue

open Cert.ReferenceIdeal Cert.ReferenceIdeal.Read

/-- The reference's result is `out` of its quantized matrices, its two scale columns and the bias. -/
theorem result_eq (x0 : (⟨S8192x4096, .f32⟩ : BufTy).Contents (Elt Ideal)) (x1 : (⟨S16384x4096, .f32⟩ : BufTy).Contents (Elt Ideal))
    (x2 : (⟨S16384, .f32⟩ : BufTy).Contents (Elt Ideal)) :
    val_main_v58 (F := Ideal) x0 x1 x2
      = Cert.ScaledProduct.out (val_main_v27 (F := Ideal) x0 x1) (val_main_v49 (F := Ideal) x0 x1)
          (val_main_v23 (F := Ideal) x0 x1) (val_main_v45 (F := Ideal) x0 x1) x2 := by
  funext i
  have e1 : ∀ k : Fin 4096, lidx_main_v50 i k = ix2 (i 0) k := fun k => funext fun a => Fin.ext (by
    match a with
    | ⟨0, _⟩ => rfl
    | ⟨1, _⟩ => rfl)
  have e2 : ∀ k : Fin 4096, ridx_main_v50 i k = ix2 (i 1) k := fun k => funext fun a => Fin.ext (by
    match a with
    | ⟨0, _⟩ => rfl
    | ⟨1, _⟩ => rfl)
  have e3 : idx_main_v51 i = ix2 (i 0) 0 := funext fun a => Fin.ext (by
    match a with
    | ⟨0, _⟩ => rfl
    | ⟨1, _⟩ => rfl)
  have e4 : idx_main_v53 (idx_main_v54 i) = ix2 (i 1) 0 := funext fun a => Fin.ext (by
    match a with
    | ⟨0, _⟩ => rfl
    | ⟨1, _⟩ => rfl)
  have e5 : idx_main_v56 (idx_main_v57 i) = ix1 (i 1) := funext fun a => Fin.ext (by
    match a with
    | ⟨0, _⟩ => rfl)
  rw [val_main_v58_apply, val_main_v55_apply, val_main_v52_apply, val_main_v50_apply, val_main_v51_apply,
    val_main_v54_apply, val_main_v53_apply, val_main_v57_apply, val_main_v56_apply]
  simp only [e1, e2, e3, e4, e5]
  rfl

end Cert.ReferenceIdeal.RefValue

end
-- ==== Proof.HostPrefix.lean ====
/-
  The arrays the kernel's region finds are the reference's own intermediate results.

  Before its region the kernel's host program computes, operation for operation and literal for literal as the
  reference does: the column-wise largest magnitudes of the input and of the weight, the square root of their product
  (the smoothing scale), the input divided by it and the weight multiplied by it, for each of the two the row-wise
  largest magnitude divided by 127 and floored at 1e-30, rounded up to a power of two (the row scales), and the
  matrix divided by its row scales, rounded to the nearest even integer and clamped to [-127, 127] (the quantized
  matrices). So the five arrays the region is launched on are: the reference's quantized activations and weights
  (narrowed to bf16, which changes no extended real), the reference's activation row scales, the reference's weight row
  scales re-laid from a column [16384, 1] to a row [1, 16384], and the bias re-laid from [16384] to [1, 16384]. None
  of those terms is opened: the two programs' terms are the same term.
-/
import proofs.«113916_j18107582120420_1_alg».proof.Proof.Gen.KernelIdeal.Frame.Runs
import proofs.«113916_j18107582120420_1_alg».proof.Proof.Gen.ReferenceIdeal.Read
import Idealize.ShloMosaic.Lib.StableHlo.Run
import Idealize.ShloMosaic.Lib.Pipeline.Value
import Idealize.ShloMosaic.Lib.ValueIdx

noncomputable section

open Idealize.ShloMosaic Idealize.ShloMosaic.TcCoe Idealize.SL.Sem Idealize.ShloMosaic.StableHlo Idealize.ShloMosaic.ValueIdx

namespace Cert.KernelIdeal.Prefix

open Cert.KernelIdeal Cert.KernelIdeal.Gen

variable (m : (ℓ : Loc nD τ sig) → Buf (Elt Ideal) ℓ)

set_option maxRecDepth 8192 in
set_option maxHeartbeats 4000000 in
/-- The x-window's array is the reference's quantized activations. -/
theorem xq_eq (c : Dev nD) :
    (V m c main_v50 : S8192x4096.Idx → EReal) = Cert.ReferenceIdeal.Read.val_main_v27 (F := Ideal) (m ((c : Thread nD τ).loc main_arg0)) (m ((c : Thread nD τ).loc main_arg1)) := by
  dsimp only [V]
  simp only [hostOps0, hostOps0_1, hostOps0_2, hostOps0_3, hostOps0_4, hostOps0_5, hostOps0_6, hostOps0_7, hostOps0_8,
    List.flatten_cons, List.flatten_nil, List.append_nil, List.cons_append, List.nil_append]
  after_results
  rfl

set_option maxRecDepth 8192 in
set_option maxHeartbeats 4000000 in
/-- The w-window's array is the reference's quantized weights. -/
theorem wq_eq (c : Dev nD) :
    (V m c main_v51 : S16384x4096.Idx → EReal) = Cert.ReferenceIdeal.Read.val_main_v49 (F := Ideal) (m ((c : Thread nD τ).loc main_arg0)) (m ((c : Thread nD τ).loc main_arg1)) := by
  dsimp only [V]
  simp only [hostOps0, hostOps0_1, hostOps0_2, hostOps0_3, hostOps0_4, hostOps0_5, hostOps0_6, hostOps0_7, hostOps0_8,
    List.flatten_cons, List.flatten_nil, List.append_nil, List.cons_append, List.nil_append]
  after_results
  rfl

set_option maxRecDepth 8192 in
set_option maxHeartbeats 4000000 in
/-- The row-scale window's array is the reference's activation row scales. -/
theorem rowScale_eq (c : Dev nD) :
    (V m c main_v23 : S8192x1.Idx → EReal) = Cert.ReferenceIdeal.Read.val_main_v23 (F := Ideal) (m ((c : Thread nD τ).loc main_arg0)) (m ((c : Thread nD τ).loc main_arg1)) := by
  dsimp only [V]
  simp only [hostOps0, hostOps0_1, hostOps0_2, hostOps0_3, hostOps0_4, hostOps0_5, hostOps0_6, hostOps0_7, hostOps0_8,
    List.flatten_cons, List.flatten_nil, List.append_nil, List.cons_append, List.nil_append]
  after_results
  rfl

set_option maxRecDepth 8192 in
set_option maxHeartbeats 4000000 in
/-- The column-scale window's array is the reference's weight row scales, the column re-laid as a row. -/
theorem colScale_eq (c : Dev nD) :
    (V m c main_v52 : S1x16384.Idx → EReal)
      = shapeCast S1x16384 (Cert.ReferenceIdeal.Read.val_main_v45 (F := Ideal) (m ((c : Thread nD τ).loc main_arg0)) (m ((c : Thread nD τ).loc main_arg1))) shapeCasts_S16384x1_S1x16384 := by
  dsimp only [V]
  simp only [hostOps0, hostOps0_1, hostOps0_2, hostOps0_3, hostOps0_4, hostOps0_5, hostOps0_6, hostOps0_7, hostOps0_8,
    List.flatten_cons, List.flatten_nil, List.append_nil, List.cons_append, List.nil_append]
  after_results
  rfl

set_option maxRecDepth 8192 in
set_option maxHeartbeats 4000000 in
/-- The bias window's array is the bias, re-laid as a row. -/
theorem bias_eq (c : Dev nD) :
    (V m c main_v53 : S1x16384.Idx → EReal) = shapeCast S1x16384 (m ((c : Thread nD τ).loc main_arg2)) shapeCasts_S16384_S1x16384 := by
  dsimp only [V]
  simp only [hostOps0, hostOps0_1, hostOps0_2, hostOps0_3, hostOps0_4, hostOps0_5, hostOps0_6, hostOps0_7, hostOps0_8,
    List.flatten_cons, List.flatten_nil, List.append_nil, List.cons_append, List.nil_append]
  after_results
  rfl

/-- A column [16384, 1] re-laid as a row [1, 16384]: entry (0, n) of the row is entry (n, 0) of the column (both are
    the n-th element in row-major order). -/
theorem column_as_row {α : Type} (v : S16384x1.Idx → α) (h : S16384x1.ShapeCasts S1x16384) (n : Fin 16384) :
    shapeCast S1x16384 v h (ix2 0 n) = v (ix2 n 0) :=
  shapeCast_apply v h (ix2 0 n) (ix2 n 0) (by
    rw [Shape.rowMajor_val_two, Shape.rowMajor_val_two]
    show n.val * 1 + 0 = 0 * 16384 + n.val
    omega)

/-- A vector [16384] re-laid as a row [1, 16384]: entry (0, n) of the row is entry n of the vector. -/
theorem vector_as_row {α : Type} (v : S16384.Idx → α) (h : S16384.ShapeCasts S1x16384) (n : Fin 16384) :
    shapeCast S1x16384 v h (ix2 0 n) = v (ix1 n) :=
  shapeCast_apply v h (ix2 0 n) (ix1 n) (by
    rw [Shape.rowMajor_val_one, Shape.rowMajor_val_two]
    show n.val = 0 * 16384 + n.val
    omega)

end Cert.KernelIdeal.Prefix

end
-- ==== Proof.Bridge.lean ====
/-
  The kernel's result is the scaled product of the reference's own quantized matrices and scales.

  The kernel's result array was read as a function of the five arrays its region finds; those five are the
  reference's quantized activations and weights, its activation row scales, its weight row scales re-laid as a row
  and the bias re-laid as a row. Entry (0, n) of a re-laid row is entry (n, 0) of the column, or entry n of the vector.
-/
import proofs.«113916_j18107582120420_1_alg».proof.Proof.KernelValue
import proofs.«113916_j18107582120420_1_alg».proof.Proof.HostPrefix

noncomputable section

open scoped BigOperators
open Idealize.ShloMosaic Idealize.ShloMosaic.TcCoe Idealize.SL.Sem Idealize.ShloMosaic.ValueIdx

namespace Cert.KernelIdeal.Bridge

open Cert.KernelIdeal Cert.KernelIdeal.Gen

variable (m : (ℓ : Loc nD τ sig) → Buf (Elt Ideal) ℓ)

/-- The kernel's result, over the reference's terms of the arguments. -/
theorem result_eq (c : Dev nD) :
    RunValue.result m c
      = Cert.ScaledProduct.out
          (Cert.ReferenceIdeal.Read.val_main_v27 (F := Ideal) (m ((c : Thread nD τ).loc main_arg0)) (m ((c : Thread nD τ).loc main_arg1)))
          (Cert.ReferenceIdeal.Read.val_main_v49 (F := Ideal) (m ((c : Thread nD τ).loc main_arg0)) (m ((c : Thread nD τ).loc main_arg1)))
          (Cert.ReferenceIdeal.Read.val_main_v23 (F := Ideal) (m ((c : Thread nD τ).loc main_arg0)) (m ((c : Thread nD τ).loc main_arg1)))
          (Cert.ReferenceIdeal.Read.val_main_v45 (F := Ideal) (m ((c : Thread nD τ).loc main_arg0)) (m ((c : Thread nD τ).loc main_arg1)))
          (m ((c : Thread nD τ).loc main_arg2)) := by
  have hX : RunValue.X m c = Cert.ReferenceIdeal.Read.val_main_v27 (F := Ideal) (m ((c : Thread nD τ).loc main_arg0)) (m ((c : Thread nD τ).loc main_arg1)) := Prefix.xq_eq m c
  have hW : RunValue.W m c = Cert.ReferenceIdeal.Read.val_main_v49 (F := Ideal) (m ((c : Thread nD τ).loc main_arg0)) (m ((c : Thread nD τ).loc main_arg1)) := Prefix.wq_eq m c
  have hA : RunValue.rowScale m c = Cert.ReferenceIdeal.Read.val_main_v23 (F := Ideal) (m ((c : Thread nD τ).loc main_arg0)) (m ((c : Thread nD τ).loc main_arg1)) :=
    Prefix.rowScale_eq m c
  have hB : RunValue.colScale m c
      = shapeCast S1x16384 (Cert.ReferenceIdeal.Read.val_main_v45 (F := Ideal) (m ((c : Thread nD τ).loc main_arg0)) (m ((c : Thread nD τ).loc main_arg1))) shapeCasts_S16384x1_S1x16384 :=
    Prefix.colScale_eq m c
  have hβ : RunValue.biasRow m c = shapeCast S1x16384 (m ((c : Thread nD τ).loc main_arg2)) shapeCasts_S16384_S1x16384 := Prefix.bias_eq m c
  funext i
  unfold RunValue.result Cert.ScaledProduct.out
  rw [hX, hW, hA, hB, hβ]
  have hc := Prefix.column_as_row (Cert.ReferenceIdeal.Read.val_main_v45 (F := Ideal) (m ((c : Thread nD τ).loc main_arg0)) (m ((c : Thread nD τ).loc main_arg1)))
    shapeCasts_S16384x1_S1x16384 (i 1)
  have hv := Prefix.vector_as_row (m ((c : Thread nD τ).loc main_arg2)) shapeCasts_S16384_S1x16384 (i 1)
  exact congrArg₂ (fun u v => _ * u + v) hc hv

end Cert.KernelIdeal.Bridge

end
-- ==== Proof.lean ====
/-
  The smooth-quantized linear layer: a blocked product with a scaled epilogue against one whole contraction.

  Both programs quantize the same way on the host — smoothing scale per column, power-of-two row scales, round and
  clamp — and then differ only in how the scaled product

      out(r, n) = (∑ₖ Xq(r, k) · Wq(n, k)) · xscale(r) · wscale(n) + bias(n)

  is formed. The reference contracts all 4096 columns at once and multiplies and adds whole arrays. The kernel walks
  an 8 × 16 × 4 grid: for each 1024 × 1024 output block it clears an accumulator, adds the four partial products of
  the four 1024-column blocks in order, and at the fourth applies the two scales and the bias and writes the block.
  On the extended reals four ordered partial sums onto zero are the whole sum (addition is commutative and
  associative and 0 is its unit, at the infinities too), the two programs group the products and the final sum the
  same way, and narrowing the quantized matrices to bf16 changes no value; so the results agree for every input, and
  the precondition that the inputs are finite is not used. The idealization rewrote no operation of the kernel.
-/
import proofs.«113916_j18107582120420_1_alg».proof.Defs
import proofs.«113916_j18107582120420_1_alg».proof.Proof.Gen.Kernel
import proofs.«113916_j18107582120420_1_alg».proof.Proof.Gen.Kernel.Skeleton
import proofs.«113916_j18107582120420_1_alg».proof.Proof.Gen.Kernel.Launch
import proofs.«113916_j18107582120420_1_alg».proof.Proof.Gen.Kernel.Points
import proofs.«113916_j18107582120420_1_alg».proof.Proof.Gen.Kernel.Frame
import proofs.«113916_j18107582120420_1_alg».proof.Proof.Gen.KernelIdeal
import proofs.«113916_j18107582120420_1_alg».proof.Proof.Gen.KernelIdeal.Skeleton
import proofs.«113916_j18107582120420_1_alg».proof.Proof.Gen.KernelIdeal.Launch
import proofs.«113916_j18107582120420_1_alg».proof.Proof.Gen.KernelIdeal.Points
import proofs.«113916_j18107582120420_1_alg».proof.Proof.Gen.KernelIdeal.Frame
import proofs.«113916_j18107582120420_1_alg».proof.Proof.Gen.ReferenceIdeal
import proofs.«113916_j18107582120420_1_alg».proof.Proof.Gen.Pre_finite_inputs
import proofs.«113916_j18107582120420_1_alg».proof.Proof.Gen.KernelIdeal.Value
import proofs.«113916_j18107582120420_1_alg».proof.Proof.Gen.ReferenceIdeal.Run
import proofs.«113916_j18107582120420_1_alg».proof.Proof.Gen.ReferenceIdeal.Read
import proofs.«113916_j18107582120420_1_alg».proof.Proof.KernelValue
import proofs.«113916_j18107582120420_1_alg».proof.Proof.ReferenceValue
import proofs.«113916_j18107582120420_1_alg».proof.Proof.Bridge
import Idealize.ShloMosaic.Adequacy
import Idealize.ShloMosaic.Init

noncomputable section

namespace Cert.Proof

open Idealize.ShloMosaic Idealize.SL.Sem

/-- The word-level kernel runs and leaves its arguments as they were. -/
theorem frame_kernel : Cert.frame_Kernel := fun m ρ _ => Cert.Kernel.Gen.frame m ρ

/-- So does its idealization. -/
theorem frame_kernelIdeal : Cert.frame_KernelIdeal := fun m ρ _ => Cert.KernelIdeal.Gen.frame m ρ

/-- The reference is a straight line of host operations: its run, with the result forgotten. -/
theorem frame_referenceIdeal : Cert.frame_ReferenceIdeal := fun m ρ _ =>
  (θ_run Cert.ReferenceIdeal.defs _ _).mono (fun _ h c => (h c).2) (Cert.ReferenceIdeal.Value.run (F := Ideal) m ρ)

/-- The idealization rewrote no operation of the kernel. -/
theorem preserves : Cert.preserves_Kernel_KernelIdeal := trivial

/-- On the extended reals the kernel's result array and the reference's both end at the scaled product of the same
    quantized matrices, scales and bias of arguments that agree. -/
theorem algebraic : Cert.algebraic_KernelIdeal_ReferenceIdeal := by
  intro m ρ m' ρ' _ hagree
  refine ⟨fun c => Cert.KernelIdeal.RunValue.result m c, Cert.KernelIdeal.RunValue.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v58_eq, Cert.ReferenceIdeal.RefValue.result_eq, (hagree c).1, (hagree c).2.1,
    (hagree c).2.2]
  exact (Cert.KernelIdeal.Bridge.result_eq m c).symm

theorem claim : Cert.Claim := ⟨Cert.Kernel.Gen.facts, Cert.KernelIdeal.Gen.facts, Cert.ReferenceIdeal.Gen.facts, Cert.Pre_finite_inputs.Gen.facts,
  frame_kernel, frame_kernelIdeal, frame_referenceIdeal, preserves, algebraic⟩

end Cert.Proof

end
